-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v20)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v78) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S1200000x16 : Shape := ⟨2, ![1200000, 16]⟩
abbrev S2x1200000 : Shape := ⟨2, ![2, 1200000]⟩
abbrev S80x64 : Shape := ⟨2, ![80, 64]⟩
abbrev S64 : Shape := ⟨1, ![64]⟩
abbrev S64x64 : Shape := ⟨2, ![64, 64]⟩
abbrev S128x64 : Shape := ⟨2, ![128, 64]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S1200000x16 : S_.BroadcastsInDim S1200000x16 (![] : Fin 0 → Fin S1200000x16.rank)
  reducesTo_S1200000x16_S_d0_1 : S1200000x16.ReducesTo [0, 1] S_
  bcast_S_S80x64 : S_.BroadcastsInDim S80x64 (![] : Fin 0 → Fin S80x64.rank)
  reducesTo_S80x64_S_d0_1 : S80x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S128x64 : S_.BroadcastsInDim S128x64 (![] : Fin 0 → Fin S128x64.rank)
  reducesTo_S128x64_S_d0_1 : S128x64.ReducesTo [0, 1] S_

variable [Facts]

def fn_part2 {F : FTy → Type} [FloatOps F] (main_arg8 : FVec F S64 .f32) (main_arg9 : FVec F S64 .f32) (main_arg10 : FVec F S64 .f32) (main_v33 : IVec S_ 1) : IVec S_ 1 :=
  let main_v34 : FVec F S64 .f32 := Host.absf main_arg8
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S64 .f32 := Host.absf main_arg9
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S64 .f32 := Host.absf main_arg10
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  main_v48

def fn_part1 {F : FTy → Type} [FloatOps F] (main_arg5 : FVec F S64x64 .f32) (main_arg6 : FVec F S64 .f32) (main_arg7 : FVec F S128x64 .f32) (main_arg8 : FVec F S64 .f32) (main_arg9 : FVec F S64 .f32) (main_arg10 : FVec F S64 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x64 .f32 := Host.absf main_arg5
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64 .f32 := Host.absf main_arg6
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S128x64 .f32 := Host.absf main_arg7
  let main_cst_10 : FVec F S_ .f32 := constant S_ .f32 0x7F800000#32
  let main_v30 : FVec F S128x64 .f32 := broadcastInDim S128x64 ![] bcast_S_S128x64 main_cst_10
  let main_v31 : IVec S128x64 1 := cmpf .olt main_v29 main_v30
  let main_c_11 : IVec S_ 1 := constantI S_ 1 1#1
  let main_v32 : IVec S_ 1 := (fun x v => Host.reduce IntOp.andi x v reducesTo_S128x64_S_d0_1 h_S_) main_v31 main_c_11
  let main_v33 : IVec S_ 1 := andi main_v28 main_v32
  fn_part2 (F := F) main_arg8 main_arg9 main_arg10 main_v33

def fn {F : FTy → Type} [FloatOps F] (main_arg0 : FVec F S100000x64 .f32) (main_arg1 : FVec F S1200000x16 .f32) (main_arg2 : IVec S2x1200000 32) (main_arg3 : FVec F S80x64 .f32) (main_arg4 : FVec F S64 .f32) (main_arg5 : FVec F S64x64 .f32) (main_arg6 : FVec F S64 .f32) (main_arg7 : FVec F S128x64 .f32) (main_arg8 : FVec F S64 .f32) (main_arg9 : FVec F S64 .f32) (main_arg10 : FVec F S64 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S1200000x16 .f32 := Host.absf main_arg1
  let main_cst_0 : FVec F S_ .f32 := constant S_ .f32 0x7F800000#32
  let main_v5 : FVec F S1200000x16 .f32 := broadcastInDim S1200000x16 ![] bcast_S_S1200000x16 main_cst_0
  let main_v6 : IVec S1200000x16 1 := cmpf .olt main_v4 main_v5
  let main_c_1 : IVec S_ 1 := constantI S_ 1 1#1
  let main_v7 : IVec S_ 1 := (fun x v => Host.reduce IntOp.andi x v reducesTo_S1200000x16_S_d0_1 h_S_) main_v6 main_c_1
  let main_v8 : IVec S_ 1 := andi main_v3 main_v7
  let main_v9 : FVec F S80x64 .f32 := Host.absf main_arg3
  let main_cst_2 : FVec F S_ .f32 := constant S_ .f32 0x7F800000#32
  let main_v10 : FVec F S80x64 .f32 := broadcastInDim S80x64 ![] bcast_S_S80x64 main_cst_2
  let main_v11 : IVec S80x64 1 := cmpf .olt main_v9 main_v10
  let main_c_3 : IVec S_ 1 := constantI S_ 1 1#1
  let main_v12 : IVec S_ 1 := (fun x v => Host.reduce IntOp.andi x v reducesTo_S80x64_S_d0_1 h_S_) main_v11 main_c_3
  let main_v13 : IVec S_ 1 := andi main_v8 main_v12
  let main_v14 : FVec F S64 .f32 := Host.absf main_arg4
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg5 main_arg6 main_arg7 main_arg8 main_arg9 main_arg10 main_v13 main_v16
-- ==== Kernel.lean ====
abbrev S100000x64 : Shape := ⟨2, ![100000, 64]⟩
abbrev S1200000x16 : Shape := ⟨2, ![1200000, 16]⟩
abbrev S2x1200000 : Shape := ⟨2, ![2, 1200000]⟩
abbrev S80x64 : Shape := ⟨2, ![80, 64]⟩
abbrev S64 : Shape := ⟨1, ![64]⟩
abbrev S64x64 : Shape := ⟨2, ![64, 64]⟩
abbrev S128x64 : Shape := ⟨2, ![128, 64]⟩
abbrev S1x1200000 : Shape := ⟨2, ![1, 1200000]⟩
abbrev S1200000 : Shape := ⟨1, ![1200000]⟩
abbrev S_ : Shape := ⟨0, ![]⟩
abbrev S1200000x1 : Shape := ⟨2, ![1200000, 1]⟩
abbrev S1200000x64 : Shape := ⟨2, ![1200000, 64]⟩
abbrev S8000x64 : Shape := ⟨2, ![8000, 64]⟩
abbrev S8000x16 : Shape := ⟨2, ![8000, 16]⟩
abbrev S8000x80 : Shape := ⟨2, ![8000, 80]⟩
abbrev S1x64 : Shape := ⟨2, ![1, 64]⟩
abbrev S5000x64 : Shape := ⟨2, ![5000, 64]⟩
abbrev S5000x128 : Shape := ⟨2, ![5000, 128]⟩
abbrev S5000 : Shape := ⟨1, ![5000]⟩
abbrev S5000x1 : Shape := ⟨2, ![5000, 1]⟩

abbrev nBuf : Space → Nat
  | .hbm => 35
  | .vmem => 20
  | .smem => 0
  | _ => 0

abbrev bufTy : (tb : Table) → Fin (tcTables nBuf tb) → BufTy
  | .hbm, ⟨0, _⟩ => ⟨S100000x64, .f32⟩
  | .hbm, ⟨1, _⟩ => ⟨S1200000x16, .f32⟩
  | .hbm, ⟨2, _⟩ => ⟨S2x1200000, .i32⟩
  | .hbm, ⟨3, _⟩ => ⟨S80x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S128x64, .f32⟩
  | .hbm, ⟨8, _⟩ => ⟨S64, .f32⟩
  | .hbm, ⟨9, _⟩ => ⟨S64, .f32⟩
  | .hbm, ⟨10, _⟩ => ⟨S64, .f32⟩
  | .hbm, ⟨11, _⟩ => ⟨S1x1200000, .i32⟩
  | .hbm, ⟨12, _⟩ => ⟨S1200000, .i32⟩
  | .hbm, ⟨13, _⟩ => ⟨S1x1200000, .i32⟩
  | .hbm, ⟨14, _⟩ => ⟨S1200000, .i32⟩
  | .hbm, ⟨15, _⟩ => ⟨S100000x64, .bf16⟩
  | .hbm, ⟨16, _⟩ => ⟨S_, .i32⟩
  | .hbm, ⟨17, _⟩ => ⟨S1200000, .i32⟩
  | .hbm, ⟨18, _⟩ => ⟨S1200000, .i1⟩
  | .hbm, ⟨19, _⟩ => ⟨S_, .i32⟩
  | .hbm, ⟨20, _⟩ => ⟨S1200000, .i32⟩
  | .hbm, ⟨21, _⟩ => ⟨S1200000, .i32⟩
  | .hbm, ⟨22, _⟩ => ⟨S1200000, .i32⟩
  | .hbm, ⟨23, _⟩ => ⟨S1200000x1, .i32⟩
  | .hbm, ⟨24, _⟩ => ⟨S1200000x64, .bf16⟩
  | .hbm, ⟨25, _⟩ => ⟨S1200000x16, .bf16⟩
  | .hbm, ⟨26, _⟩ => ⟨S80x64, .bf16⟩
  | .hbm, ⟨27, _⟩ => ⟨S64x64, .bf16⟩
  | .hbm, ⟨28, _⟩ => ⟨S128x64, .bf16⟩
  | .hbm, ⟨29, _⟩ => ⟨S1200000x64, .f32⟩
  | .hbm, ⟨30, _⟩ => ⟨S_, .f32⟩
  | .hbm, ⟨31, _⟩ => ⟨S100000x64, .f32⟩
  | .hbm, ⟨32, _⟩ => ⟨S1200000x1, .i32⟩
  | .hbm, ⟨33, _⟩ => ⟨S100000x64, .f32⟩
  | .hbm, ⟨34, _⟩ => ⟨S100000x64, .f32⟩
  | .local _ .vmem, ⟨0, _⟩ => ⟨S8000x64, .bf16⟩
  | .local _ .vmem, ⟨1, _⟩ => ⟨S8000x64, .bf16⟩
  | .local _ .vmem, ⟨2, _⟩ => ⟨S8000x16, .bf16⟩
  | .local _ .vmem, ⟨3, _⟩ => ⟨S8000x16, .bf16⟩
  | .local _ .vmem, ⟨4, _⟩ => ⟨S80x64, .bf16⟩
  | .local _ .vmem, ⟨5, _⟩ => ⟨S64, .f32⟩
  | .local _ .vmem, ⟨6, _⟩ => ⟨S64x64, .bf16⟩
  | .local _ .vmem, ⟨7, _⟩ => ⟨S64, .f32⟩
  | .local _ .vmem, ⟨8, _⟩ => ⟨S8000x64, .f32⟩
  | .local _ .vmem, ⟨9, _⟩ => ⟨S8000x64, .f32⟩
  | .local _ .vmem, ⟨10, _⟩ => ⟨S5000x64, .f32⟩
  | .local _ .vmem, ⟨11, _⟩ => ⟨S5000x64, .f32⟩
  | .local _ .vmem, ⟨12, _⟩ => ⟨S5000x64, .f32⟩
  | .local _ .vmem, ⟨13, _⟩ => ⟨S5000x64, .f32⟩
  | .local _ .vmem, ⟨14, _⟩ => ⟨S128x64, .bf16⟩
  | .local _ .vmem, ⟨15, _⟩ => ⟨S64, .f32⟩
  | .local _ .vmem, ⟨16, _⟩ => ⟨S64, .f32⟩
  | .local _ .vmem, ⟨17, _⟩ => ⟨S64, .f32⟩
  | .local _ .vmem, ⟨18, _⟩ => ⟨S5000x64, .f32⟩
  | .local _ .vmem, ⟨19, _⟩ => ⟨S5000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_c : Ref sig .tc := ⟨.hbm, 16, rfl⟩
abbrev main_v5 : Ref sig .tc := ⟨.hbm, 17, rfl⟩
abbrev main_v6 : Ref sig .tc := ⟨.hbm, 18, rfl⟩
abbrev main_c_0 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_cst : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg5_0 : Ref sig .tc := ⟨.vmem, 17, rfl⟩
abbrev cc1_stg6_0 : Ref sig .tc := ⟨.vmem, 18, rfl⟩
abbrev cc1_stg6_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem3_0 : DmaSem sig := 15
abbrev cc1_sem4_0 : DmaSem sig := 16
abbrev cc1_sem5_0 : DmaSem sig := 17
abbrev cc1_sem6_0 : DmaSem sig := 18
abbrev cc1_sem6_1 : DmaSem sig := 19

abbrev nD : Nat := 1
abbrev τ : Topo := Topo.v7x

variable {F : FTy → Type} [FloatOps F]

abbrev grid0 : Pipeline.Grid := ⟨1, ![150], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8000x64 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8000x16 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S80x64 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x64 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S8000x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x64 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S5000x64 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

class Facts₀ : Prop where
  slices_S2x1200000_S1x1200000_0_0 : S2x1200000.Slices ![0, 0] S1x1200000
  shapeCasts_S1x1200000_S1200000 : S1x1200000.ShapeCasts S1200000
  slices_S2x1200000_S1x1200000_1_0 : S2x1200000.Slices ![1, 0] S1x1200000
  bitsLt_bf16_f32 : FTy.bits .bf16 < FTy.bits .f32
  bcast_S_S1200000 : S_.BroadcastsInDim S1200000 (![] : Fin 0 → Fin S1200000.rank)
  bcast_S1200000_S1200000x1_0 : S1200000.BroadcastsInDim S1200000x1 (![0] : Fin 1 → Fin S1200000x1.rank)
  inb_S8000x64_S8000x64_0_0 : ∀ a, (![0, 0] : Fin 2 → Nat) a + S8000x64.size a ≤ S8000x64.size a
  h_S8000x64 : 0 < S8000x64.numel
  shapeCasts_S8000x64_S8000x64 : S8000x64.ShapeCasts S8000x64
  inb_S8000x16_S8000x16_0_0 : ∀ a, (![0, 0] : Fin 2 → Nat) a + S8000x16.size a ≤ S8000x16.size a
  h_S8000x16 : 0 < S8000x16.numel
  shapeCasts_S8000x16_S8000x16 : S8000x16.ShapeCasts S8000x16
  concatenates_S8000x64_S8000x16_S8000x80_d1 : Shape.Concatenates [S8000x64, S8000x16] S8000x80 1
  inb_S80x64_S80x64_0_0 : ∀ a, (![0, 0] : Fin 2 → Nat) a + S80x64.size a ≤ S80x64.size a
  h_S80x64 : 0 < S80x64.numel
  shapeCasts_S80x64_S80x64 : S80x64.ShapeCasts S80x64
  inb_S64_S64_0 : ∀ a, (![0] : Fin 1 → Nat) a + S64.size a ≤ S64.size a
  h_S64 : 0 < S64.numel
  shapeCasts_S64_S1x64 : S64.ShapeCasts S1x64
  broadcasts_S1x64_S8000x64 : S1x64.Broadcasts S8000x64
  inb_S64x64_S64x64_0_0 : ∀ a, (![0, 0] : Fin 2 → Nat) a + S64x64.size a ≤ S64x64.size a
  h_S64x64 : 0 < S64x64.numel
  shapeCasts_S64x64_S64x64 : S64x64.ShapeCasts S64x64
  bcast_S_S100000x64 : S_.BroadcastsInDim S100000x64 (![] : Fin 0 → Fin S100000x64.rank)
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  concatenates_S5000x64_S5000x64_S5000x128_d1 : Shape.Concatenates [S5000x64, S5000x64] S5000x128 1
  inb_S128x64_S128x64_0_0 : ∀ a, (![0, 0] : Fin 2 → Nat) a + S128x64.size a ≤ S128x64.size a
  h_S128x64 : 0 < S128x64.numel
  shapeCasts_S128x64_S128x64 : S128x64.ShapeCasts S128x64
  broadcasts_S1x64_S5000x64 : S1x64.Broadcasts S5000x64
  reduces_S5000x64_S5000 : S5000x64.Reduces [1] S5000
  shapeCasts_S5000_S5000x1 : S5000.ShapeCasts S5000x1
  broadcasts_S5000x1_S5000x64 : S5000x1.Broadcasts S5000x64
  gather_S100000x64_S1200000x1_S1200000x64_1_0_n_n_0_1_164_wf : GatherDims.WF S100000x64 S1200000x1 S1200000x64 [1] [0] [] [0] [] 1 ![1, 64]
  dot_S8000x80_S80x64_S8000x64_1_0_0_1_n_n_wf : DotDims.WF S8000x80 S80x64 S8000x64 [1] [0] [0] [1] [] []
  dot_S8000x64_S64x64_S8000x64_1_0_0_1_n_n_wf : DotDims.WF S8000x64 S64x64 S8000x64 [1] [0] [0] [1] [] []
  scatter_S100000x64_S1200000x1_S1200000x64_1_0_0_1_wf : ScatterDims.WF S100000x64 S1200000x1 S1200000x64 [1] [0] [0] 1
  dot_S5000x128_S128x64_S5000x64_1_0_0_1_n_n_wf : DotDims.WF S5000x128 S128x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8000x64.size a ≤ S1200000x64.size a
  hwx0_0 : ∀ i : grid0.Coords, EltTy.bits .bf16 = 32 ∨ (Rect.block (s := S1200000x64) S8000x64.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8000x16.size a ≤ S1200000x16.size a
  hwx0_1 : ∀ i : grid0.Coords, EltTy.bits .bf16 = 32 ∨ (Rect.block (s := S1200000x16) S8000x16.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S80x64.size a ≤ S80x64.size a
  hwx0_2 : ∀ i : grid0.Coords, EltTy.bits .bf16 = 32 ∨ (Rect.block (s := S80x64) S80x64.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64.size a ≤ S64.size a
  hwx0_3 : ∀ i : grid0.Coords, EltTy.bits .f32 = 32 ∨ (Rect.block (s := S64) S64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x64.size a ≤ S64x64.size a
  hwx0_4 : ∀ i : grid0.Coords, EltTy.bits .bf16 = 32 ∨ (Rect.block (s := S64x64) S64x64.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64.size a ≤ S64.size a
  hwx0_5 : ∀ i : grid0.Coords, EltTy.bits .f32 = 32 ∨ (Rect.block (s := S64) S64.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S8000x64.size a ≤ S1200000x64.size a
  hwx0_6 : ∀ i : grid0.Coords, EltTy.bits .f32 = 32 ∨ (Rect.block (s := S1200000x64) S8000x64.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x64.size a ≤ S100000x64.size a
  hwx1_1 : ∀ i : grid1.Coords, EltTy.bits .f32 = 32 ∨ (Rect.block (s := S100000x64) S5000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x64.size a ≤ S128x64.size a
  hwx1_2 : ∀ i : grid1.Coords, EltTy.bits .bf16 = 32 ∨ (Rect.block (s := S128x64) S128x64.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64.size a ≤ S64.size a
  hwx1_3 : ∀ i : grid1.Coords, EltTy.bits .f32 = 32 ∨ (Rect.block (s := S64) S64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64.size a ≤ S64.size a
  hwx1_4 : ∀ i : grid1.Coords, EltTy.bits .f32 = 32 ∨ (Rect.block (s := S64) S64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S64.size a ≤ S64.size a
  hwx1_5 : ∀ i : grid1.Coords, EltTy.bits .f32 = 32 ∨ (Rect.block (s := S64) S64.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S5000x64.size a ≤ S100000x64.size a
  hwx1_6 : ∀ i : grid1.Coords, EltTy.bits .f32 = 32 ∨ (Rect.block (s := S100000x64) S5000x64.size (cc1_transform_6 i) (hinb1_6 i)).WholeWords (EltTy.packing .f32)

variable [Facts₀]

def gather_S100000x64_S1200000x1_S1200000x64_1_0_n_n_0_1_164 : GatherDims S100000x64 S1200000x1 S1200000x64 where
  offsetDims := [1]
  collapsedSliceDims := [0]
  operandBatchingDims := []
  startIndicesBatchingDims := []
  startIndexMap := [0]
  indexVectorDim := 1
  sliceSizes := ![1, 64]
  wf := gather_S100000x64_S1200000x1_S1200000x64_1_0_n_n_0_1_164_wf
def dot_S8000x80_S80x64_S8000x64_1_0_0_1_n_n : DotDims S8000x80 S80x64 S8000x64 where
  lhsContracting := [1]
  rhsContracting := [0]
  lhsNonContracting := [0]
  rhsNonContracting := [1]
  lhsBatch := []
  rhsBatch := []
  wf := dot_S8000x80_S80x64_S8000x64_1_0_0_1_n_n_wf
def dot_S8000x64_S64x64_S8000x64_1_0_0_1_n_n : DotDims S8000x64 S64x64 S8000x64 where
  lhsContracting := [1]
  rhsContracting := [0]
  lhsNonContracting := [0]
  rhsNonContracting := [1]
  lhsBatch := []
  rhsBatch := []
  wf := dot_S8000x64_S64x64_S8000x64_1_0_0_1_n_n_wf
def scatter_S100000x64_S1200000x1_S1200000x64_1_0_0_1 : ScatterDims S100000x64 S1200000x1 S1200000x64 where
  updateWindowDims := [1]
  insertedWindowDims := [0]
  scatterDimsToOperandDims := [0]
  indexVectorDim := 1
  wf := scatter_S100000x64_S1200000x1_S1200000x64_1_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf

abbrev win0_0 : Pipeline.Window sig grid0 :=
  Pipeline.Window.ofSpec (Memref.whole main_v11) S8000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v12) S8000x16.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v13) S80x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v14) S64x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg6) S64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v16) S8000x64.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_arg0) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v19) S5000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v15) S128x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg8) S64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg9) S64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg10) S64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v20) S5000x64.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S100000x64 : Shape := ⟨2, ![100000, 64]⟩
abbrev S1200000x16 : Shape := ⟨2, ![1200000, 16]⟩
abbrev S2x1200000 : Shape := ⟨2, ![2, 1200000]⟩
abbrev S80x64 : Shape := ⟨2, ![80, 64]⟩
abbrev S64 : Shape := ⟨1, ![64]⟩
abbrev S64x64 : Shape := ⟨2, ![64, 64]⟩
abbrev S128x64 : Shape := ⟨2, ![128, 64]⟩
abbrev S1x1200000 : Shape := ⟨2, ![1, 1200000]⟩
abbrev S1200000 : Shape := ⟨1, ![1200000]⟩
abbrev S_ : Shape := ⟨0, ![]⟩
abbrev S1200000x1 : Shape := ⟨2, ![1200000, 1]⟩
abbrev S1200000x64 : Shape := ⟨2, ![1200000, 64]⟩
abbrev S1200000x80 : Shape := ⟨2, ![1200000, 80]⟩
abbrev S1x64 : Shape := ⟨2, ![1, 64]⟩
abbrev S100000x128 : Shape := ⟨2, ![100000, 128]⟩
abbrev S100000 : Shape := ⟨1, ![100000]⟩
abbrev S100000x1 : Shape := ⟨2, ![100000, 1]⟩

abbrev nBuf : Space → Nat
  | .hbm => 106
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S1200000x16, .f32⟩
  | .hbm, ⟨2, _⟩ => ⟨S2x1200000, .i32⟩
  | .hbm, ⟨3, _⟩ => ⟨S80x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S128x64, .f32⟩
  | .hbm, ⟨8, _⟩ => ⟨S64, .f32⟩
  | .hbm, ⟨9, _⟩ => ⟨S64, .f32⟩
  | .hbm, ⟨10, _⟩ => ⟨S64, .f32⟩
  | .hbm, ⟨11, _⟩ => ⟨S1x1200000, .i32⟩
  | .hbm, ⟨12, _⟩ => ⟨S1200000, .i32⟩
  | .hbm, ⟨13, _⟩ => ⟨S1x1200000, .i32⟩
  | .hbm, ⟨14, _⟩ => ⟨S1200000, .i32⟩
  | .hbm, ⟨15, _⟩ => ⟨S_, .i32⟩
  | .hbm, ⟨16, _⟩ => ⟨S1200000, .i32⟩
  | .hbm, ⟨17, _⟩ => ⟨S1200000, .i1⟩
  | .hbm, ⟨18, _⟩ => ⟨S_, .i32⟩
  | .hbm, ⟨19, _⟩ => ⟨S1200000, .i32⟩
  | .hbm, ⟨20, _⟩ => ⟨S1200000, .i32⟩
  | .hbm, ⟨21, _⟩ => ⟨S1200000, .i32⟩
  | .hbm, ⟨22, _⟩ => ⟨S1200000x1, .i32⟩
  | .hbm, ⟨23, _⟩ => ⟨S1200000x64, .f32⟩
  | .hbm, ⟨24, _⟩ => ⟨S1200000x80, .f32⟩
  | .hbm, ⟨25, _⟩ => ⟨S1200000x64, .f32⟩
  | .hbm, ⟨26, _⟩ => ⟨S1x64, .f32⟩
  | .hbm, ⟨27, _⟩ => ⟨S1200000x64, .f32⟩
  | .hbm, ⟨28, _⟩ => ⟨S1200000x64, .f32⟩
  | .hbm, ⟨29, _⟩ => ⟨S1200000x64, .f32⟩
  | .hbm, ⟨30, _⟩ => ⟨S1200000x64, .f32⟩
  | .hbm, ⟨31, _⟩ => ⟨S_, .f32⟩
  | .hbm, ⟨32, _⟩ => ⟨S1200000x64, .f32⟩
  | .hbm, ⟨33, _⟩ => ⟨S1200000x64, .f32⟩
  | .hbm, ⟨34, _⟩ => ⟨S1200000x64, .f32⟩
  | .hbm, ⟨35, _⟩ => ⟨S_, .f32⟩
  | .hbm, ⟨36, _⟩ => ⟨S1200000x64, .f32⟩
  | .hbm, ⟨37, _⟩ => ⟨S1200000x64, .f32⟩
  | .hbm, ⟨38, _⟩ => ⟨S1200000x64, .f32⟩
  | .hbm, ⟨39, _⟩ => ⟨S_, .f32⟩
  | .hbm, ⟨40, _⟩ => ⟨S1200000x64, .f32⟩
  | .hbm, ⟨41, _⟩ => ⟨S1200000x64, .f32⟩
  | .hbm, ⟨42, _⟩ => ⟨S_, .f32⟩
  | .hbm, ⟨43, _⟩ => ⟨S1200000x64, .f32⟩
  | .hbm, ⟨44, _⟩ => ⟨S1200000x64, .f32⟩
  | .hbm, ⟨45, _⟩ => ⟨S1200000x64, .f32⟩
  | .hbm, ⟨46, _⟩ => ⟨S1200000x64, .f32⟩
  | .hbm, ⟨47, _⟩ => ⟨S1x64, .f32⟩
  | .hbm, ⟨48, _⟩ => ⟨S1200000x64, .f32⟩
  | .hbm, ⟨49, _⟩ => ⟨S1200000x64, .f32⟩
  | .hbm, ⟨50, _⟩ => ⟨S_, .f32⟩
  | .hbm, ⟨51, _⟩ => ⟨S100000x64, .f32⟩
  | .hbm, ⟨52, _⟩ => ⟨S1200000x1, .i32⟩
  | .hbm, ⟨53, _⟩ => ⟨S100000x64, .f32⟩
  | .hbm, ⟨54, _⟩ => ⟨S100000x128, .f32⟩
  | .hbm, ⟨55, _⟩ => ⟨S100000x64, .f32⟩
  | .hbm, ⟨56, _⟩ => ⟨S1x64, .f32⟩
  | .hbm, ⟨57, _⟩ => ⟨S100000x64, .f32⟩
  | .hbm, ⟨58, _⟩ => ⟨S100000x64, .f32⟩
  | .hbm, ⟨59, _⟩ => ⟨S_, .f32⟩
  | .hbm, ⟨60, _⟩ => ⟨S100000, .f32⟩
  | .hbm, ⟨61, _⟩ => ⟨S100000x1, .f32⟩
  | .hbm, ⟨62, _⟩ => ⟨S_, .f32⟩
  | .hbm, ⟨63, _⟩ => ⟨S100000x1, .f32⟩
  | .hbm, ⟨64, _⟩ => ⟨S100000x1, .f32⟩
  | .hbm, ⟨65, _⟩ => ⟨S100000x64, .f32⟩
  | .hbm, ⟨66, _⟩ => ⟨S100000x64, .f32⟩
  | .hbm, ⟨67, _⟩ => ⟨S100000x64, .f32⟩
  | .hbm, ⟨68, _⟩ => ⟨S_, .f32⟩
  | .hbm, ⟨69, _⟩ => ⟨S100000, .f32⟩
  | .hbm, ⟨70, _⟩ => ⟨S100000x1, .f32⟩
  | .hbm, ⟨71, _⟩ => ⟨S_, .f32⟩
  | .hbm, ⟨72, _⟩ => ⟨S100000x1, .f32⟩
  | .hbm, ⟨73, _⟩ => ⟨S100000x1, .f32⟩
  | .hbm, ⟨74, _⟩ => ⟨S100000x64, .f32⟩
  | .hbm, ⟨75, _⟩ => ⟨S100000x64, .f32⟩
  | .hbm, ⟨76, _⟩ => ⟨S_, .f32⟩
  | .hbm, ⟨77, _⟩ => ⟨S100000x1, .f32⟩
  | .hbm, ⟨78, _⟩ => ⟨S100000x1, .f32⟩
  | .hbm, ⟨79, _⟩ => ⟨S100000x1, .f32⟩
  | .hbm, ⟨80, _⟩ => ⟨S100000x64, .f32⟩
  | .hbm, ⟨81, _⟩ => ⟨S100000x64, .f32⟩
  | .hbm, ⟨82, _⟩ => ⟨S1x64, .f32⟩
  | .hbm, ⟨83, _⟩ => ⟨S100000x64, .f32⟩
  | .hbm, ⟨84, _⟩ => ⟨S100000x64, .f32⟩
  | .hbm, ⟨85, _⟩ => ⟨S1x64, .f32⟩
  | .hbm, ⟨86, _⟩ => ⟨S100000x64, .f32⟩
  | .hbm, ⟨87, _⟩ => ⟨S100000x64, .f32⟩
  | .hbm, ⟨88, _⟩ => ⟨S100000x64, .f32⟩
  | .hbm, ⟨89, _⟩ => ⟨S100000x64, .f32⟩
  | .hbm, ⟨90, _⟩ => ⟨S_, .f32⟩
  | .hbm, ⟨91, _⟩ => ⟨S100000x64, .f32⟩
  | .hbm, ⟨92, _⟩ => ⟨S100000x64, .f32⟩
  | .hbm, ⟨93, _⟩ => ⟨S100000x64, .f32⟩
  | .hbm, ⟨94, _⟩ => ⟨S_, .f32⟩
  | .hbm, ⟨95, _⟩ => ⟨S100000x64, .f32⟩
  | .hbm, ⟨96, _⟩ => ⟨S100000x64, .f32⟩
  | .hbm, ⟨97, _⟩ => ⟨S100000x64, .f32⟩
  | .hbm, ⟨98, _⟩ => ⟨S_, .f32⟩
  | .hbm, ⟨99, _⟩ => ⟨S100000x64, .f32⟩
  | .hbm, ⟨100, _⟩ => ⟨S100000x64, .f32⟩
  | .hbm, ⟨101, _⟩ => ⟨S_, .f32⟩
  | .hbm, ⟨102, _⟩ => ⟨S100000x64, .f32⟩
  | .hbm, ⟨103, _⟩ => ⟨S100000x64, .f32⟩
  | .hbm, ⟨104, _⟩ => ⟨S100000x64, .f32⟩
  | .hbm, ⟨105, _⟩ => ⟨S100000x64, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_c : Ref sig .tc := ⟨.hbm, 15, rfl⟩
abbrev main_v4 : Ref sig .tc := ⟨.hbm, 16, rfl⟩
abbrev main_v5 : Ref sig .tc := ⟨.hbm, 17, rfl⟩
abbrev main_c_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_cst_1 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_cst_2 : Ref sig .tc := ⟨.hbm, 39, rfl⟩
abbrev main_v24 : Ref sig .tc := ⟨.hbm, 40, rfl⟩
abbrev main_v25 : Ref sig .tc := ⟨.hbm, 41, rfl⟩
abbrev main_cst_3 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_cst_4 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_5 : Ref sig .tc := ⟨.hbm, 59, rfl⟩
abbrev main_v41 : Ref sig .tc := ⟨.hbm, 60, rfl⟩
abbrev main_v42 : Ref sig .tc := ⟨.hbm, 61, rfl⟩
abbrev main_cst_6 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_cst_7 : Ref sig .tc := ⟨.hbm, 68, rfl⟩
abbrev main_v48 : Ref sig .tc := ⟨.hbm, 69, rfl⟩
abbrev main_v49 : Ref sig .tc := ⟨.hbm, 70, rfl⟩
abbrev main_cst_8 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_cst_9 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_cst_10 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_cst_11 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_cst_12 : Ref sig .tc := ⟨.hbm, 98, rfl⟩
abbrev main_v73 : Ref sig .tc := ⟨.hbm, 99, rfl⟩
abbrev main_v74 : Ref sig .tc := ⟨.hbm, 100, rfl⟩
abbrev main_cst_13 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩

abbrev nD : Nat := 1
abbrev τ : Topo := Topo.v7x

variable {F : FTy → Type} [FloatOps F]

class Facts₀ : Prop where
  slices_S2x1200000_S1x1200000_0_0 : S2x1200000.Slices ![0, 0] S1x1200000
  shapeCasts_S1x1200000_S1200000 : S1x1200000.ShapeCasts S1200000
  slices_S2x1200000_S1x1200000_1_0 : S2x1200000.Slices ![1, 0] S1x1200000
  bcast_S_S1200000 : S_.BroadcastsInDim S1200000 (![] : Fin 0 → Fin S1200000.rank)
  bcast_S1200000_S1200000x1_0 : S1200000.BroadcastsInDim S1200000x1 (![0] : Fin 1 → Fin S1200000x1.rank)
  concatenates_S1200000x64_S1200000x16_S1200000x80_d1 : Shape.Concatenates [S1200000x64, S1200000x16] S1200000x80 1
  bcast_S64_S1x64_1 : S64.BroadcastsInDim S1x64 (![1] : Fin 1 → Fin S1x64.rank)
  bcast_S1x64_S1200000x64_0_1 : S1x64.BroadcastsInDim S1200000x64 (![0, 1] : Fin 2 → Fin S1200000x64.rank)
  bcast_S_S1200000x64 : S_.BroadcastsInDim S1200000x64 (![] : Fin 0 → Fin S1200000x64.rank)
  bcast_S_S100000x64 : S_.BroadcastsInDim S100000x64 (![] : Fin 0 → Fin S100000x64.rank)
  concatenates_S100000x64_S100000x64_S100000x128_d1 : Shape.Concatenates [S100000x64, S100000x64] S100000x128 1
  bcast_S1x64_S100000x64_0_1 : S1x64.BroadcastsInDim S100000x64 (![0, 1] : Fin 2 → Fin S100000x64.rank)
  reducesTo_S100000x64_S100000_d1 : S100000x64.ReducesTo [1] S100000
  h_S_ : 0 < S_.numel
  bcast_S100000_S100000x1_0 : S100000.BroadcastsInDim S100000x1 (![0] : Fin 1 → Fin S100000x1.rank)
  bcast_S_S100000x1 : S_.BroadcastsInDim S100000x1 (![] : Fin 0 → Fin S100000x1.rank)
  bcast_S100000x1_S100000x64_0_1 : S100000x1.BroadcastsInDim S100000x64 (![0, 1] : Fin 2 → Fin S100000x64.rank)
  gather_S100000x64_S1200000x1_S1200000x64_1_0_n_n_0_1_164_wf : GatherDims.WF S100000x64 S1200000x1 S1200000x64 [1] [0] [] [0] [] 1 ![1, 64]
  dot_S1200000x80_S80x64_S1200000x64_1_0_0_1_n_n_wf : DotDims.WF S1200000x80 S80x64 S1200000x64 [1] [0] [0] [1] [] []
  dot_S1200000x64_S64x64_S1200000x64_1_0_0_1_n_n_wf : DotDims.WF S1200000x64 S64x64 S1200000x64 [1] [0] [0] [1] [] []
  scatter_S100000x64_S1200000x1_S1200000x64_1_0_0_1_wf : ScatterDims.WF S100000x64 S1200000x1 S1200000x64 [1] [0] [0] 1
  dot_S100000x128_S128x64_S100000x64_1_0_0_1_n_n_wf : DotDims.WF S100000x128 S128x64 S100000x64 [1] [0] [0] [1] [] []

variable [Facts₀]

def gather_S100000x64_S1200000x1_S1200000x64_1_0_n_n_0_1_164 : GatherDims S100000x64 S1200000x1 S1200000x64 where
  offsetDims := [1]
  collapsedSliceDims := [0]
  operandBatchingDims := []
  startIndicesBatchingDims := []
  startIndexMap := [0]
  indexVectorDim := 1
  sliceSizes := ![1, 64]
  wf := gather_S100000x64_S1200000x1_S1200000x64_1_0_n_n_0_1_164_wf
def dot_S1200000x80_S80x64_S1200000x64_1_0_0_1_n_n : DotDims S1200000x80 S80x64 S1200000x64 where
  lhsContracting := [1]
  rhsContracting := [0]
  lhsNonContracting := [0]
  rhsNonContracting := [1]
  lhsBatch := []
  rhsBatch := []
  wf := dot_S1200000x80_S80x64_S1200000x64_1_0_0_1_n_n_wf
def dot_S1200000x64_S64x64_S1200000x64_1_0_0_1_n_n : DotDims S1200000x64 S64x64 S1200000x64 where
  lhsContracting := [1]
  rhsContracting := [0]
  lhsNonContracting := [0]
  rhsNonContracting := [1]
  lhsBatch := []
  rhsBatch := []
  wf := dot_S1200000x64_S64x64_S1200000x64_1_0_0_1_n_n_wf
def scatter_S100000x64_S1200000x1_S1200000x64_1_0_0_1 : ScatterDims S100000x64 S1200000x1 S1200000x64 where
  updateWindowDims := [1]
  insertedWindowDims := [0]
  scatterDimsToOperandDims := [0]
  indexVectorDim := 1
  wf := scatter_S100000x64_S1200000x1_S1200000x64_1_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf

class Facts : Prop extends Facts₀ where

variable [Facts]
-- ==== Proof.LibDenseRows.lean ====
/-
  Row-wise dense algebra read at an index given by coordinates, at the ideal values: a plain two-dimensional
  contraction `[M, K] · [K, N]` (the kernel's matrix product into a zero accumulator and the host's `dot_general`) as a sum
  over `k : Fin K` of the left operand's row times the right operand's column; a bias vector `[N]` laid along every row of
  `[M, N]` (both spellings: cast to one row then broadcast, and two `broadcast_in_dim`s); a concatenation of two blocks side
  by side along the columns; and a sum along the columns of `[M, N]` (the lane reduction and the host's `reduce`), plain
  and laid back out as a column `[M, 1]` that is broadcast over the columns.
-/
import Idealize.ShloMosaic.Lib.ValueIdx
import Idealize.ShloMosaic.Lib.ValueLayout
import Idealize.ShloMosaic.Lib.Pipeline.Value
import Idealize.ShloMosaic.Lib.KernelVsHost
import Idealize.ShloMosaic.Lib.IdealHost
import Idealize.ShloMosaic.PureOps.Ideal.Laws

noncomputable section

namespace Cert.DenseRows

open Idealize.ShloMosaic Idealize.ShloMosaic.ValueIdx
open scoped BigOperators

/-! ## A plain contraction `[M, K] · [K, N]` -/

/-- For dimension numbers that contract the left operand's columns with the right operand's rows and keep the left rows and
    the right columns in place, the sum over the contraction index at `(r, c)` is the sum over `k : Fin K` of the left
    operand at `(r, k)` times the right operand at `(k, c)`. -/
theorem sum_contr_plain {M K N : ℕ} (D : DotDims ⟨2, ![M, K]⟩ ⟨2, ![K, N]⟩ ⟨2, ![M, N]⟩)
    (hl : D.lhsContracting = [(1 : Fin 2)]) (hr : D.rhsContracting = [(0 : Fin 2)])
    (hrank : D.contr.rank = 1) (hsize : D.contr.size ⟨0, by omega⟩ = K)
    (hl0 : ∀ j k, (D.lhsIdx j k (0 : Fin 2)).val = (j (0 : Fin 2)).val)
    (hr1 : ∀ j k, (D.rhsIdx j k (1 : Fin 2)).val = (j (1 : Fin 2)).val)
    (A : (⟨2, ![M, K]⟩ : Shape).Idx → EReal) (W : (⟨2, ![K, N]⟩ : Shape).Idx → EReal) (r : Fin M) (c : Fin N) :
    ∑ k : D.contr.Idx, A (D.lhsIdx (ix2 r c) k) * W (D.rhsIdx (ix2 r c) k) = ∑ k : Fin K, A (ix2 r k) * W (ix2 k c) := by
  rw [← Equiv.sum_comp (contrEquiv1 D K hrank hsize).symm]
  refine Finset.sum_congr rfl fun k _ => ?_
  have e1 : D.lhsIdx (ix2 r c) ((contrEquiv1 D K hrank hsize).symm k) = ix2 r k := by
    funext a; apply Fin.ext
    match a with
    | ⟨0, _⟩ => exact hl0 _ _
    | ⟨1, _⟩ => exact (D.lhsIdx_val_of_single hl _ _).trans (contrEquiv1_symm_val D K hrank hsize k)
  have e2 : D.rhsIdx (ix2 r c) ((contrEquiv1 D K hrank hsize).symm k) = ix2 k c := by
    funext a; apply Fin.ext
    match a with
    | ⟨0, _⟩ => exact (D.rhsIdx_val_of_single hr _ _).trans (contrEquiv1_symm_val D K hrank hsize k)
    | ⟨1, _⟩ => exact hr1 _ _
  rw [e1, e2]

/-- The kernel's matrix product into the zero accumulator, at `(r, c)`. -/
theorem matmul_zero_plain_apply {M K N : ℕ} {φ₁ φ₂ : FTy} (D : DotDims ⟨2, ![M, K]⟩ ⟨2, ![K, N]⟩ ⟨2, ![M, N]⟩)
    (hl : D.lhsContracting = [(1 : Fin 2)]) (hr : D.rhsContracting = [(0 : Fin 2)])
    (hrank : D.contr.rank = 1) (hsize : D.contr.size ⟨0, by omega⟩ = K)
    (hl0 : ∀ j k, (D.lhsIdx j k (0 : Fin 2)).val = (j (0 : Fin 2)).val)
    (hr1 : ∀ j k, (D.rhsIdx j k (1 : Fin 2)).val = (j (1 : Fin 2)).val)
    (A : FVec Ideal ⟨2, ![M, K]⟩ φ₁) (W : FVec Ideal ⟨2, ![K, N]⟩ φ₂) (r : Fin M) (c : Fin N) :
    matmul D none A W (constant (F := Ideal) ⟨2, ![M, N]⟩ .f32 0x00000000#32) (ix2 r c) = ∑ k : Fin K, A (ix2 r k) * W (ix2 k c) :=
  (Ideal.matmul_constant_zero_apply D none A W (ix2 r c)).trans (sum_contr_plain D hl hr hrank hsize hl0 hr1 A W r c)

/-- The host's `dot_general` with the same dimension numbers, at `(r, c)`. -/
theorem dotGeneral_plain_apply {M K N : ℕ} {φ₁ φ₂ : FTy} (D : DotDims ⟨2, ![M, K]⟩ ⟨2, ![K, N]⟩ ⟨2, ![M, N]⟩)
    (hl : D.lhsContracting = [(1 : Fin 2)]) (hr : D.rhsContracting = [(0 : Fin 2)])
    (hrank : D.contr.rank = 1) (hsize : D.contr.size ⟨0, by omega⟩ = K)
    (hl0 : ∀ j k, (D.lhsIdx j k (0 : Fin 2)).val = (j (0 : Fin 2)).val)
    (hr1 : ∀ j k, (D.rhsIdx j k (1 : Fin 2)).val = (j (1 : Fin 2)).val)
    (A : FVec Ideal ⟨2, ![M, K]⟩ φ₁) (W : FVec Ideal ⟨2, ![K, N]⟩ φ₂) (r : Fin M) (c : Fin N) :
    Host.dotGeneral D none A W (ix2 r c) = ∑ k : Fin K, A (ix2 r k) * W (ix2 k c) :=
  (Ideal.dotGeneral_apply D none .single A W (ix2 r c)).trans (sum_contr_plain D hl hr hrank hsize hl0 hr1 A W r c)

/-! ## A bias vector along every row -/

variable {α : Type}

/-- A vector `[N]` cast to one row `[1, N]` and broadcast down `M` rows reads, at `(r, c)`, the vector at `c`. -/
theorem rowBias_cast_apply {M N : ℕ} (b : (⟨1, ![N]⟩ : Shape).Idx → α) (h1 : (⟨1, ![N]⟩ : Shape).ShapeCasts ⟨2, ![1, N]⟩)
    (h2 : (⟨2, ![1, N]⟩ : Shape).Broadcasts ⟨2, ![M, N]⟩) (r : Fin M) (c : Fin N) :
    broadcastTo ⟨2, ![M, N]⟩ (shapeCast ⟨2, ![1, N]⟩ b h1) h2 (ix2 r c) = b (ix1 c) :=
  (broadcastTo_1b_ab_apply _ h2 r c).trans (shapeCast_a_1a_apply b h1 0 c)

/-- A vector `[N]` placed on axis 1 of `[1, N]` reads, at `(u, c)`, the vector at `c`. -/
theorem broadcastInDim_a_1a_apply {N : ℕ} (b : (⟨1, ![N]⟩ : Shape).Idx → α)
    (h : (⟨1, ![N]⟩ : Shape).BroadcastsInDim ⟨2, ![1, N]⟩ ![1]) (u : Fin 1) (c : Fin N) :
    broadcastInDim ⟨2, ![1, N]⟩ ![1] h b (ix2 u c) = b (ix1 c) := by
  refine broadcastInDim_apply ![1] h b (ix2 u c) (ix1 c) fun a => ?_
  match a with
  | ⟨0, _⟩ =>
    show c.val = if N = 1 then 0 else c.val
    split
    · have := c.isLt; omega
    · rfl

/-- The host's spelling of the same: two `broadcast_in_dim`s, `[N]` to `[1, N]` to `[M, N]`. -/
theorem rowBias_inDim_apply {M N : ℕ} (b : (⟨1, ![N]⟩ : Shape).Idx → α)
    (h1 : (⟨1, ![N]⟩ : Shape).BroadcastsInDim ⟨2, ![1, N]⟩ ![1])
    (h2 : (⟨2, ![1, N]⟩ : Shape).BroadcastsInDim ⟨2, ![M, N]⟩ ![0, 1]) (r : Fin M) (c : Fin N) :
    broadcastInDim ⟨2, ![M, N]⟩ ![0, 1] h2 (broadcastInDim ⟨2, ![1, N]⟩ ![1] h1 b) (ix2 r c) = b (ix1 c) :=
  (broadcastInDim_oneRow_apply h2 _ r c).trans (broadcastInDim_a_1a_apply b h1 0 c)

/-! ## Two blocks side by side -/

/-- Two blocks `[M, A]` and `[M, B]` concatenated along the columns: a column left of `A` reads the first block. -/
theorem concat_cols_left {M A B C : ℕ} (x : (⟨2, ![M, A]⟩ : Shape).Idx → α) (y : (⟨2, ![M, B]⟩ : Shape).Idx → α)
    (h : Shape.Concatenates [⟨2, ![M, A]⟩, ⟨2, ![M, B]⟩] ⟨2, ![M, C]⟩ (1 : Fin 2)) (r : Fin M) (k : Fin C) (hk : k.val < A) :
    concatenate ⟨2, ![M, C]⟩ (1 : Fin 2) [⟨⟨2, ![M, A]⟩, x⟩, ⟨⟨2, ![M, B]⟩, y⟩] h (ix2 r k) = x (ix2 r ⟨k.val, hk⟩) :=
  concatenate_pair_apply_left (1 : Fin 2) x y h (ix2 r k) rfl (ix2 r ⟨k.val, hk⟩) fun b => by
    match b with
    | ⟨0, _⟩ => rfl
    | ⟨1, _⟩ => rfl

/-- … and a column from `A` on reads the second block, `A` columns to the left. -/
theorem concat_cols_right {M A B C : ℕ} (x : (⟨2, ![M, A]⟩ : Shape).Idx → α) (y : (⟨2, ![M, B]⟩ : Shape).Idx → α)
    (h : Shape.Concatenates [⟨2, ![M, A]⟩, ⟨2, ![M, B]⟩] ⟨2, ![M, C]⟩ (1 : Fin 2)) (r : Fin M) (k : Fin C) (hk : A ≤ k.val)
    (hk' : k.val - A < B) :
    concatenate ⟨2, ![M, C]⟩ (1 : Fin 2) [⟨⟨2, ![M, A]⟩, x⟩, ⟨⟨2, ![M, B]⟩, y⟩] h (ix2 r k) = y (ix2 r ⟨k.val - A, hk'⟩) :=
  concatenate_pair_apply_right (1 : Fin 2) x y h (ix2 r k) rfl rfl (ix2 r ⟨k.val - A, hk'⟩)
    (fun b hb => by
      match b with
      | ⟨0, _⟩ => rfl
      | ⟨1, _⟩ => exact absurd rfl hb)
    (by show k.val - A + A = k.val; omega)

/-! ## A sum along the columns -/

/-- The lane reduction of `[M, N]` along its columns from the zero word, at row `r`. -/
theorem laneSum_apply {M N : ℕ} (src : FVec Ideal ⟨2, ![M, N]⟩ .f32) (h : (⟨2, ![M, N]⟩ : Shape).Reduces [(1 : Fin 2)] ⟨1, ![M]⟩)
    (hφ : FKind.Formats .f32) (hacc : (0x00000000#32 : BitVec 32) = FKind.add.neutral .f32 hφ)
    (hlift : ∀ (r : Fin M) (k : Fin N), h.lift (ix1 r) k = ix2 r k) (r : Fin M) :
    multiReduction .add [(1 : Fin 2)] ⟨1, ![M]⟩ src 0x00000000#32 h hφ hacc (ix1 r) = ∑ k : Fin N, src (ix2 r k) :=
  (Ideal.multiReduction_add_single src 0x00000000#32 h hφ hacc (ix1 r)).trans
    (Finset.sum_congr rfl fun k _ => congrArg src (hlift r k))

/-- The host's `reduce` with `add` along the columns from an initial scalar, at row `r`. -/
theorem hostRowSum_apply {M N : ℕ} (x : FVec Ideal ⟨2, ![M, N]⟩ .f32) (init : (⟨0, ![]⟩ : Shape).Idx → Ideal .f32)
    (h' : (⟨2, ![M, N]⟩ : Shape).ReducesTo [(1 : Fin 2)] ⟨1, ![M]⟩) (hu : 0 < (⟨0, ![]⟩ : Shape).numel)
    (h : (⟨2, ![M, N]⟩ : Shape).Reduces [(1 : Fin 2)] ⟨1, ![M]⟩)
    (hlift : ∀ (r : Fin M) (k : Fin N), h.lift (ix1 r) k = ix2 r k) (r : Fin M) :
    Host.reduceAdd x init h' hu (ix1 r) = init (Shape.Idx.first hu) + ∑ k : Fin N, x (ix2 r k) :=
  (hostReduceAdd_apply x init h' hu (ix1 r)).trans
    ((Ideal.hostReduceAdd_single h' h x _ (ix1 r)).trans
      (congrArg (init (Shape.Idx.first hu) + ·) (Finset.sum_congr rfl fun k _ => congrArg x (hlift r k))))

/-- A vector `[M]` placed on axis 0 of `[M, 1]` reads, at `(r, u)`, the vector at `r`. -/
theorem broadcastInDim_a_a1_apply {M : ℕ} (v : (⟨1, ![M]⟩ : Shape).Idx → α)
    (h : (⟨1, ![M]⟩ : Shape).BroadcastsInDim ⟨2, ![M, 1]⟩ ![0]) (r : Fin M) (u : Fin 1) :
    broadcastInDim ⟨2, ![M, 1]⟩ ![0] h v (ix2 r u) = v (ix1 r) := by
  refine broadcastInDim_apply ![0] h v (ix2 r u) (ix1 r) fun a => ?_
  match a with
  | ⟨0, _⟩ =>
    show r.val = if M = 1 then 0 else r.val
    split
    · have := r.isLt; omega
    · rfl

/-- A column `[M, 1]` laid over the columns of `[M, N]` by `broadcast_in_dim` reads, at `(r, c)`, the column at row `r`. -/
theorem broadcastInDim_a1_ab_apply {M N : ℕ} (v : (⟨2, ![M, 1]⟩ : Shape).Idx → α)
    (h : (⟨2, ![M, 1]⟩ : Shape).BroadcastsInDim ⟨2, ![M, N]⟩ ![0, 1]) (r : Fin M) (c : Fin N) :
    broadcastInDim ⟨2, ![M, N]⟩ ![0, 1] h v (ix2 r c) = v (ix2 r (0 : Fin 1)) := by
  refine broadcastInDim_apply ![0, 1] h v (ix2 r c) (ix2 r (0 : Fin 1)) fun a => ?_
  match a with
  | ⟨0, _⟩ =>
    show r.val = if M = 1 then 0 else r.val
    split
    · have := r.isLt; omega
    · rfl
  | ⟨1, _⟩ => rfl

end Cert.DenseRows

end
-- ==== Proof.LibColumnLayout.lean ====
/-
  Two layout operations read at an index given by coordinates, for a column kept as a trailing unit axis
  (`keepdims=True`): a vector `[a]` cast to a column `[a, 1]`, and a column `[a, 1]` broadcast along the rows of
  `[a, b]`. Each reads one element of its operand: the one with the same row.
-/
import Idealize.ShloMosaic.Lib.ValueLayout

namespace Cert.ColumnLayout

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.ColumnLayout
-- ==== Proof.Rows.lean ====
/-
  The mathematics of the layer, row by row, on the extended reals, and the two spellings of each step read at an index.

  One edge's message is `lin (gelu ∘ lin (cat s e) W₁ b₁) W₂ b₂`: the source node's 64 features `s` and the edge's 16
  features `e` side by side, an affine map to 64 hidden units, the tanh form of GELU on each unit, a second affine map.
  One node's update is `gelu (lnRow (lin (cat n a) W₃ b₃) γ β) + n`: the node's features `n` beside its aggregated messages
  `a`, an affine map, a layer normalisation over the 64 units (mean and variance by sums divided by the literal 64, the
  reciprocal square root of the variance plus the literal epsilon, scale `γ` and shift `β`), GELU, and the residual.

  The kernel cubes `x` as `x · (x · x)` and the host as `(x · x) · x`: equal by commutativity of the product, which the
  extended reals have at every value. Nothing else in the layer is re-associated, so no finiteness is used.
-/
import proofs.«125495_j83348135346321_2_alg».proof.Proof.LibDenseRows
import proofs.«125495_j83348135346321_2_alg».proof.Proof.LibColumnLayout

noncomputable section

namespace Cert.Rows

open Idealize.ShloMosaic Idealize.ShloMosaic.ValueIdx Cert.DenseRows
open scoped BigOperators

/-! ## The row functions -/

/-- The tanh form of GELU, `x · (½ · (1 + tanh (c₂ · (x + c₁ · x³))))`, the cube taken as `x · (x · x)`; the four literals
    are the binary values both programs carry. -/
def gelu (x : EReal) : EReal :=
  x * (Ideal.ofBits .f32 0x3F000000#32 * (Ideal.ofBits .f32 0x3F800000#32
    + Ideal.tanh (Ideal.ofBits .f32 0x3F4C422A#32 * (x + Ideal.ofBits .f32 0x3D372713#32 * (x * (x * x))))))

/-- The same with the cube taken as `(x · x) · x`. -/
theorem gelu_cube_comm (x : EReal) :
    x * (Ideal.ofBits .f32 0x3F000000#32 * (Ideal.ofBits .f32 0x3F800000#32
      + Ideal.tanh (Ideal.ofBits .f32 0x3F4C422A#32 * (x + Ideal.ofBits .f32 0x3D372713#32 * (x * x * x))))) = gelu x := by
  unfold gelu; rw [mul_comm (x * x) x]

/-- An affine map: column `j` of `x · W + b`. -/
def lin {K N : ℕ} (x : Fin K → EReal) (W : Fin K → Fin N → EReal) (b : Fin N → EReal) (j : Fin N) : EReal :=
  (∑ k : Fin K, x k * W k j) + b j

/-- Two rows side by side. -/
def cat {A B C : ℕ} (x : Fin A → EReal) (y : Fin B → EReal) (k : Fin C) : EReal :=
  if h : k.val < A then x ⟨k.val, h⟩ else if h' : k.val - A < B then y ⟨k.val - A, h'⟩ else 0

/-- A row's sum divided by the literal 64. -/
def mean64 {N : ℕ} (h : Fin N → EReal) : EReal := Ideal.div (∑ k : Fin N, h k) (Ideal.ofBits .f32 0x42800000#32)

/-- Layer normalisation of a row, with scale and shift. -/
def lnRow {N : ℕ} (h sc bi : Fin N → EReal) (j : Fin N) : EReal :=
  (h j - mean64 h) * Ideal.rsqrt (mean64 (fun k => (h k - mean64 h) * (h k - mean64 h)) + Ideal.ofBits .f32 0x358637BD#32)
    * sc j + bi j

/-- One edge's message. -/
def edgeRow (s : Fin 64 → EReal) (e : Fin 16 → EReal) (W1 : Fin 80 → Fin 64 → EReal) (b1 : Fin 64 → EReal)
    (W2 : Fin 64 → Fin 64 → EReal) (b2 : Fin 64 → EReal) : Fin 64 → EReal :=
  lin (fun k => gelu (lin (cat s e) W1 b1 k)) W2 b2

/-- One node's update. -/
def nodeRow (n a : Fin 64 → EReal) (W3 : Fin 128 → Fin 64 → EReal) (b3 sc bi : Fin 64 → EReal) (j : Fin 64) : EReal :=
  gelu (lnRow (lin (cat n a) W3 b3) sc bi j) + n j

/-- `edgeRow` and `nodeRow` take equal values on equal operands (the operands compared one by one). -/
theorem edgeRow_congr {s s' : Fin 64 → EReal} {e e' : Fin 16 → EReal} {W1 W1' : Fin 80 → Fin 64 → EReal} {b1 b1' : Fin 64 → EReal}
    {W2 W2' : Fin 64 → Fin 64 → EReal} {b2 b2' : Fin 64 → EReal} {q q' : Fin 64} (hs : s = s') (he : e = e') (hW1 : W1 = W1')
    (hb1 : b1 = b1') (hW2 : W2 = W2') (hb2 : b2 = b2') (hq : q = q') :
    edgeRow s e W1 b1 W2 b2 q = edgeRow s' e' W1' b1' W2' b2' q' := by
  subst hs he hW1 hb1 hW2 hb2 hq; rfl

theorem nodeRow_congr {n n' a a' : Fin 64 → EReal} {W3 W3' : Fin 128 → Fin 64 → EReal} {b3 b3' sc sc' bi bi' : Fin 64 → EReal}
    {q q' : Fin 64} (hn : n = n') (ha : a = a') (hW3 : W3 = W3') (hb3 : b3 = b3') (hsc : sc = sc') (hbi : bi = bi') (hq : q = q') :
    nodeRow n a W3 b3 sc bi q = nodeRow n' a' W3' b3' sc' bi' q' := by
  subst hn ha hW3 hb3 hsc hbi hq; rfl

/-- Row `r` of a matrix, a matrix as a function of two coordinates, a vector as a function of one. -/
abbrev rowOf {M N : ℕ} (X : (⟨2, ![M, N]⟩ : Shape).Idx → EReal) (r : Fin M) : Fin N → EReal := fun k => X (ix2 r k)
abbrev matOf {K N : ℕ} (W : (⟨2, ![K, N]⟩ : Shape).Idx → EReal) : Fin K → Fin N → EReal := fun k j => W (ix2 k j)
abbrev vecOf {N : ℕ} (b : (⟨1, ![N]⟩ : Shape).Idx → EReal) : Fin N → EReal := fun j => b (ix1 j)

/-! ## Each step read at `(r, c)`, in the kernel's spelling and in the host's -/

/-- Two blocks concatenated along the columns, row `r`: the two rows side by side. -/
theorem concat_apply {M A B C : ℕ} (hC : C = A + B) (x : (⟨2, ![M, A]⟩ : Shape).Idx → EReal) (y : (⟨2, ![M, B]⟩ : Shape).Idx → EReal)
    (h : Shape.Concatenates [⟨2, ![M, A]⟩, ⟨2, ![M, B]⟩] ⟨2, ![M, C]⟩ (1 : Fin 2)) (r : Fin M) (k : Fin C) :
    concatenate ⟨2, ![M, C]⟩ (1 : Fin 2) [⟨⟨2, ![M, A]⟩, x⟩, ⟨⟨2, ![M, B]⟩, y⟩] h (ix2 r k) = cat (rowOf x r) (rowOf y r) k := by
  unfold cat
  by_cases hk : k.val < A
  · rw [dif_pos hk]; exact concat_cols_left x y h r k hk
  · have hk' : k.val - A < B := by have := k.isLt; omega
    rw [dif_neg hk, dif_pos hk']; exact concat_cols_right x y h r k (by omega) hk'

section Dense
variable {M K N : ℕ} {φ₁ φ₂ : FTy} (D : DotDims ⟨2, ![M, K]⟩ ⟨2, ![K, N]⟩ ⟨2, ![M, N]⟩)
    (hl : D.lhsContracting = [(1 : Fin 2)]) (hr : D.rhsContracting = [(0 : Fin 2)])
    (hrank : D.contr.rank = 1) (hsize : D.contr.size ⟨0, by omega⟩ = K)
    (hl0 : ∀ j k, (D.lhsIdx j k (0 : Fin 2)).val = (j (0 : Fin 2)).val)
    (hr1 : ∀ j k, (D.rhsIdx j k (1 : Fin 2)).val = (j (1 : Fin 2)).val)
    (A : FVec Ideal ⟨2, ![M, K]⟩ φ₁) (W : FVec Ideal ⟨2, ![K, N]⟩ φ₂) (b : FVec Ideal ⟨1, ![N]⟩ .f32)
include hl hr hrank hsize hl0 hr1

/-- The kernel's dense layer: the matrix product into zeros plus the bias cast to a row and broadcast. -/
theorem dense_kernel_apply (h1 : (⟨1, ![N]⟩ : Shape).ShapeCasts ⟨2, ![1, N]⟩) (h2 : (⟨2, ![1, N]⟩ : Shape).Broadcasts ⟨2, ![M, N]⟩)
    (r : Fin M) (c : Fin N) :
    addf (matmul D none A W (constant (F := Ideal) ⟨2, ![M, N]⟩ .f32 0x00000000#32))
      (broadcastTo ⟨2, ![M, N]⟩ (shapeCast ⟨2, ![1, N]⟩ b h1) h2) (ix2 r c)
      = lin (fun k => A (ix2 r k)) (fun k j => W (ix2 k j)) (fun j => b (ix1 j)) c :=
  congrArg₂ (· + ·) (matmul_zero_plain_apply D hl hr hrank hsize hl0 hr1 A W r c) (rowBias_cast_apply b h1 h2 r c)

/-- The host's dense layer: `dot_general` plus the bias through two `broadcast_in_dim`s. -/
theorem dense_host_apply (h1 : (⟨1, ![N]⟩ : Shape).BroadcastsInDim ⟨2, ![1, N]⟩ ![1])
    (h2 : (⟨2, ![1, N]⟩ : Shape).BroadcastsInDim ⟨2, ![M, N]⟩ ![0, 1]) (r : Fin M) (c : Fin N) :
    addf (Host.dotGeneral D none A W)
      (broadcastInDim ⟨2, ![M, N]⟩ ![0, 1] h2 (broadcastInDim ⟨2, ![1, N]⟩ ![1] h1 b)) (ix2 r c)
      = lin (fun k => A (ix2 r k)) (fun k j => W (ix2 k j)) (fun j => b (ix1 j)) c :=
  congrArg₂ (· + ·) (dotGeneral_plain_apply D hl hr hrank hsize hl0 hr1 A W r c) (rowBias_inDim_apply b h1 h2 r c)

end Dense

/-- Rounding an f32 vector to bf16 is the identity on the extended reals. -/
theorem truncf_bf16_apply {s : Shape} (a : FVec Ideal s .f32) (h : FTy.bf16.bits < FTy.f32.bits) (i : s.Idx) :
    ((truncf .bf16 a h : FVec Ideal s .bf16) i : EReal) = a i := rfl

/-- GELU in the kernel's spelling, at any index. -/
theorem gelu_kernel_apply {s : Shape} (H : FVec Ideal s .f32) (i : s.Idx) :
    mulf H (mulf (broadcast s (Scalar.ofBits (F := Ideal) .f32 0x3F000000#32))
      (addf (broadcast s (Scalar.ofBits (F := Ideal) .f32 0x3F800000#32))
        (tanh (mulf (broadcast s (Scalar.ofBits (F := Ideal) .f32 0x3F4C422A#32))
          (addf H (mulf (broadcast s (Scalar.ofBits (F := Ideal) .f32 0x3D372713#32)) (mulf H (mulf H H)))))))) i
      = gelu (H i) := rfl

/-- GELU in the host's spelling, at any index. -/
theorem gelu_host_apply {s : Shape} (hb : (⟨0, ![]⟩ : Shape).BroadcastsInDim s ![]) (H : FVec Ideal s .f32) (i : s.Idx) :
    mulf H (mulf (broadcastInDim s ![] hb (constant (F := Ideal) ⟨0, ![]⟩ .f32 0x3F000000#32))
      (addf (broadcastInDim s ![] hb (constant (F := Ideal) ⟨0, ![]⟩ .f32 0x3F800000#32))
        (Host.tanh (mulf (broadcastInDim s ![] hb (constant (F := Ideal) ⟨0, ![]⟩ .f32 0x3F4C422A#32))
          (addf H (mulf (broadcastInDim s ![] hb (constant (F := Ideal) ⟨0, ![]⟩ .f32 0x3D372713#32)) (mulf (mulf H H) H))))))) i
      = gelu (H i) :=
  gelu_cube_comm (H i)

/-! ## Layer normalisation, in the kernel's spelling and in the host's -/

/-- The index a reduction along the columns inserts: row `r`, column `k`. -/
theorem lift_cols {M N : ℕ} (hred : (⟨2, ![M, N]⟩ : Shape).Reduces [(1 : Fin 2)] ⟨1, ![M]⟩) (r : Fin M) (k : Fin N) :
    hred.lift (ix1 r) k = ix2 r k := by
  funext a; apply Fin.ext
  match a with
  | ⟨0, _⟩ => rfl
  | ⟨1, _⟩ => rfl

section LayerNorm
variable {M N : ℕ} (H : FVec Ideal ⟨2, ![M, N]⟩ .f32) (sc bi : FVec Ideal ⟨1, ![N]⟩ .f32)

section Kernel
variable (hred : (⟨2, ![M, N]⟩ : Shape).Reduces [(1 : Fin 2)] ⟨1, ![M]⟩) (hφ : FKind.Formats .f32)
    (hacc : (0x00000000#32 : BitVec 32) = FKind.add.neutral .f32 hφ) (hc : (⟨1, ![M]⟩ : Shape).ShapeCasts ⟨2, ![M, 1]⟩)
    (hb : (⟨2, ![M, 1]⟩ : Shape).Broadcasts ⟨2, ![M, N]⟩)
    (hcr : (⟨1, ![N]⟩ : Shape).ShapeCasts ⟨2, ![1, N]⟩) (hbr : (⟨2, ![1, N]⟩ : Shape).Broadcasts ⟨2, ![M, N]⟩)

/-- The column of row means as the kernel writes it: the lane sum, cast to a column, divided by the splat of 64. -/
abbrev meanColK (X : FVec Ideal ⟨2, ![M, N]⟩ .f32) : FVec Ideal ⟨2, ![M, 1]⟩ .f32 :=
  divf (shapeCast ⟨2, ![M, 1]⟩ (multiReduction .add [(1 : Fin 2)] ⟨1, ![M]⟩ X 0x00000000#32 hred hφ hacc) hc)
    (broadcast ⟨2, ![M, 1]⟩ (Scalar.ofBits (F := Ideal) .f32 0x42800000#32))

theorem meanColK_apply (X : FVec Ideal ⟨2, ![M, N]⟩ .f32) (r : Fin M) (u : Fin 1) :
    meanColK hred hφ hacc hc X (ix2 r u) = mean64 (fun k => X (ix2 r k)) :=
  congrArg (Ideal.div · (Ideal.ofBits .f32 0x42800000#32))
    ((ColumnLayout.shapeCast_a_a1_apply _ hc r u).trans (laneSum_apply X hred hφ hacc (lift_cols hred) r))

/-- The rows less their means. -/
abbrev centeredK : FVec Ideal ⟨2, ![M, N]⟩ .f32 :=
  subf H (broadcastTo ⟨2, ![M, N]⟩ (meanColK hred hφ hacc hc H) hb)

/-- The kernel's normalised, scaled and shifted rows. -/
abbrev lnKernel : FVec Ideal ⟨2, ![M, N]⟩ .f32 :=
  addf (mulf (mulf (centeredK H hred hφ hacc hc hb)
      (broadcastTo ⟨2, ![M, N]⟩ (rsqrt (addf (meanColK hred hφ hacc hc (mulf (centeredK H hred hφ hacc hc hb) (centeredK H hred hφ hacc hc hb)))
        (broadcast ⟨2, ![M, 1]⟩ (Scalar.ofBits (F := Ideal) .f32 0x358637BD#32)))) hb))
      (broadcastTo ⟨2, ![M, N]⟩ (shapeCast ⟨2, ![1, N]⟩ sc hcr) hbr))
    (broadcastTo ⟨2, ![M, N]⟩ (shapeCast ⟨2, ![1, N]⟩ bi hcr) hbr)

theorem lnKernel_apply (r : Fin M) (j : Fin N) :
    lnKernel H sc bi hred hφ hacc hc hb hcr hbr (ix2 r j)
      = lnRow (fun k => H (ix2 r k)) (fun k => sc (ix1 k)) (fun k => bi (ix1 k)) j := by
  have hcen : ∀ k : Fin N, centeredK H hred hφ hacc hc hb (ix2 r k) = H (ix2 r k) - mean64 (fun k => H (ix2 r k)) := fun k =>
    congrArg (H (ix2 r k) - ·) ((ColumnLayout.broadcastTo_a1_ab_apply _ hb r k).trans (meanColK_apply hred hφ hacc hc H r 0))
  have hrs : broadcastTo ⟨2, ![M, N]⟩ (rsqrt (addf (meanColK hred hφ hacc hc (mulf (centeredK H hred hφ hacc hc hb) (centeredK H hred hφ hacc hc hb)))
        (broadcast ⟨2, ![M, 1]⟩ (Scalar.ofBits (F := Ideal) .f32 0x358637BD#32)))) hb (ix2 r j)
      = Ideal.rsqrt (mean64 (fun k => (H (ix2 r k) - mean64 (fun k => H (ix2 r k))) * (H (ix2 r k) - mean64 (fun k => H (ix2 r k))))
          + Ideal.ofBits .f32 0x358637BD#32) :=
    (ColumnLayout.broadcastTo_a1_ab_apply _ hb r j).trans
      (congrArg (fun v => Ideal.rsqrt (v + Ideal.ofBits .f32 0x358637BD#32))
        ((meanColK_apply hred hφ hacc hc _ r 0).trans
          (congrArg (fun f : Fin N → EReal => mean64 f) (funext fun k => congrArg₂ (· * ·) (hcen k) (hcen k)))))
  exact congrArg₂ (· + ·) (congrArg₂ (· * ·) (congrArg₂ (· * ·) (hcen j) hrs) (rowBias_cast_apply sc hcr hbr r j))
    (rowBias_cast_apply bi hcr hbr r j)

end Kernel

section Host
variable (h' : (⟨2, ![M, N]⟩ : Shape).ReducesTo [(1 : Fin 2)] ⟨1, ![M]⟩) (hu : 0 < (⟨0, ![]⟩ : Shape).numel)
    (hred : (⟨2, ![M, N]⟩ : Shape).Reduces [(1 : Fin 2)] ⟨1, ![M]⟩)
    (hb0 : (⟨1, ![M]⟩ : Shape).BroadcastsInDim ⟨2, ![M, 1]⟩ ![0]) (hbs : (⟨0, ![]⟩ : Shape).BroadcastsInDim ⟨2, ![M, 1]⟩ ![])
    (hb : (⟨2, ![M, 1]⟩ : Shape).BroadcastsInDim ⟨2, ![M, N]⟩ ![0, 1])
    (h1 : (⟨1, ![N]⟩ : Shape).BroadcastsInDim ⟨2, ![1, N]⟩ ![1]) (h2 : (⟨2, ![1, N]⟩ : Shape).BroadcastsInDim ⟨2, ![M, N]⟩ ![0, 1])

/-- The column of row means as the host writes it: `reduce` from zero, laid out as a column, divided by the broadcast 64. -/
abbrev meanColH (X : FVec Ideal ⟨2, ![M, N]⟩ .f32) : FVec Ideal ⟨2, ![M, 1]⟩ .f32 :=
  Host.divf (broadcastInDim ⟨2, ![M, 1]⟩ ![0] hb0 (Host.reduceAdd X (constant (F := Ideal) ⟨0, ![]⟩ .f32 0x00000000#32) h' hu))
    (broadcastInDim ⟨2, ![M, 1]⟩ ![] hbs (constant (F := Ideal) ⟨0, ![]⟩ .f32 0x42800000#32))

include hred in
theorem meanColH_apply (X : FVec Ideal ⟨2, ![M, N]⟩ .f32) (r : Fin M) (u : Fin 1) :
    meanColH h' hu hb0 hbs X (ix2 r u) = mean64 (fun k => X (ix2 r k)) :=
  congrArg (Ideal.div · (Ideal.ofBits .f32 0x42800000#32))
    ((broadcastInDim_a_a1_apply _ hb0 r u).trans
      ((hostRowSum_apply X _ h' hu hred (lift_cols hred) r).trans
        ((congrArg (· + ∑ k : Fin N, X (ix2 r k)) Ideal.ofBits_zero_f32).trans (zero_add _))))

abbrev centeredH : FVec Ideal ⟨2, ![M, N]⟩ .f32 :=
  subf H (broadcastInDim ⟨2, ![M, N]⟩ ![0, 1] hb (meanColH h' hu hb0 hbs H))

/-- The host's normalised, scaled and shifted rows. -/
abbrev lnHost : FVec Ideal ⟨2, ![M, N]⟩ .f32 :=
  addf (mulf (mulf (centeredH H h' hu hb0 hbs hb)
      (broadcastInDim ⟨2, ![M, N]⟩ ![0, 1] hb (Host.rsqrt (addf (meanColH h' hu hb0 hbs (mulf (centeredH H h' hu hb0 hbs hb) (centeredH H h' hu hb0 hbs hb)))
        (broadcastInDim ⟨2, ![M, 1]⟩ ![] hbs (constant (F := Ideal) ⟨0, ![]⟩ .f32 0x358637BD#32))))))
      (broadcastInDim ⟨2, ![M, N]⟩ ![0, 1] h2 (broadcastInDim ⟨2, ![1, N]⟩ ![1] h1 sc)))
    (broadcastInDim ⟨2, ![M, N]⟩ ![0, 1] h2 (broadcastInDim ⟨2, ![1, N]⟩ ![1] h1 bi))

include hred in
theorem lnHost_apply (r : Fin M) (j : Fin N) :
    lnHost H sc bi h' hu hb0 hbs hb h1 h2 (ix2 r j)
      = lnRow (fun k => H (ix2 r k)) (fun k => sc (ix1 k)) (fun k => bi (ix1 k)) j := by
  have hcen : ∀ k : Fin N, centeredH H h' hu hb0 hbs hb (ix2 r k) = H (ix2 r k) - mean64 (fun k => H (ix2 r k)) := fun k =>
    congrArg (H (ix2 r k) - ·) ((broadcastInDim_a1_ab_apply _ hb r k).trans (meanColH_apply h' hu hred hb0 hbs H r 0))
  have hrs : broadcastInDim ⟨2, ![M, N]⟩ ![0, 1] hb (Host.rsqrt (addf (meanColH h' hu hb0 hbs (mulf (centeredH H h' hu hb0 hbs hb) (centeredH H h' hu hb0 hbs hb)))
        (broadcastInDim ⟨2, ![M, 1]⟩ ![] hbs (constant (F := Ideal) ⟨0, ![]⟩ .f32 0x358637BD#32)))) (ix2 r j)
      = Ideal.rsqrt (mean64 (fun k => (H (ix2 r k) - mean64 (fun k => H (ix2 r k))) * (H (ix2 r k) - mean64 (fun k => H (ix2 r k))))
          + Ideal.ofBits .f32 0x358637BD#32) :=
    (broadcastInDim_a1_ab_apply _ hb r j).trans
      (congrArg (fun v => Ideal.rsqrt (v + Ideal.ofBits .f32 0x358637BD#32))
        ((meanColH_apply h' hu hred hb0 hbs _ r 0).trans
          (congrArg (fun f : Fin N → EReal => mean64 f) (funext fun k => congrArg₂ (· * ·) (hcen k) (hcen k)))))
  exact congrArg₂ (· + ·) (congrArg₂ (· * ·) (congrArg₂ (· * ·) (hcen j) hrs) (rowBias_inDim_apply sc h1 h2 r j))
    (rowBias_inDim_apply bi h1 h2 r j)

end Host

end LayerNorm

/-! ## The two whole-array functions -/

/-- Every edge's message: row `e` is `edgeRow` of row `e` of the gathered source features and of the edge features. -/
def msgArr {E : ℕ} (Sf : (⟨2, ![E, 64]⟩ : Shape).Idx → EReal) (Ef : (⟨2, ![E, 16]⟩ : Shape).Idx → EReal)
    (W1 : (⟨2, ![80, 64]⟩ : Shape).Idx → EReal) (b1 : (⟨1, ![64]⟩ : Shape).Idx → EReal)
    (W2 : (⟨2, ![64, 64]⟩ : Shape).Idx → EReal) (b2 : (⟨1, ![64]⟩ : Shape).Idx → EReal) : (⟨2, ![E, 64]⟩ : Shape).Idx → EReal :=
  fun i => edgeRow (rowOf Sf (i 0)) (rowOf Ef (i 0)) (matOf W1) (vecOf b1) (matOf W2) (vecOf b2) (i 1)

/-- Every node's update: row `n` is `nodeRow` of row `n` of the node features and of the aggregated messages. -/
def updArr {V : ℕ} (X : (⟨2, ![V, 64]⟩ : Shape).Idx → EReal) (Agg : (⟨2, ![V, 64]⟩ : Shape).Idx → EReal)
    (W3 : (⟨2, ![128, 64]⟩ : Shape).Idx → EReal) (b3 sc bi : (⟨1, ![64]⟩ : Shape).Idx → EReal) : (⟨2, ![V, 64]⟩ : Shape).Idx → EReal :=
  fun i => nodeRow (rowOf X (i 0)) (rowOf Agg (i 0)) (matOf W3) (vecOf b3) (vecOf sc) (vecOf bi) (i 1)

end Cert.Rows

end
-- ==== Proof.KernelPay.lean ====
/-
  The two kernel bodies' stored values read at an index, at the ideal values. A block of the edge kernel holds, at row `r`
  and column `j`, the message `edgeRow` of row `r` of its two input blocks; a block of the node kernel holds `nodeRow` of row
  `r` of its two input blocks. Rounding the operands of a matrix product to bf16 is the identity on the extended reals,
  the matrix product into zeros is the plain sum of products, and the lane reduction is the plain sum.
-/
import proofs.«125495_j83348135346321_2_alg».proof.Proof.Gen.KernelIdeal.Skeleton
import proofs.«125495_j83348135346321_2_alg».proof.Proof.Rows

noncomputable section

namespace Cert.KernelIdeal.Pay

open Idealize.ShloMosaic Idealize.ShloMosaic.ValueIdx Cert.KernelIdeal Cert.KernelIdeal.Gen Cert.Rows Cert.DenseRows

/-- The edge kernel's stored block at `(r, j)`. -/
theorem edge_apply (x0 : FVec Ideal S8000x64 .bf16) (x1 : FVec Ideal S8000x16 .bf16) (x2 : FVec Ideal S80x64 .bf16)
    (x3 : FVec Ideal S64 .f32) (x4 : FVec Ideal S64x64 .bf16) (x5 : FVec Ideal S64 .f32) (r : Fin 8000) (j : Fin 64) :
    k0_pay1 (F := Ideal) x0 x1 x2 x3 x4 x5 (ix2 r j)
      = edgeRow (rowOf x0 r) (rowOf x1 r) (matOf x2) (vecOf x3) (matOf x4) (vecOf x5) j := by
  unfold k0_pay1
  simp only [shapeCast_self]
  refine (dense_kernel_apply dot_S8000x64_S64x64_S8000x64_1_0_0_1_n_n rfl rfl rfl rfl (fun _ _ => rfl) (fun _ _ => rfl)
    _ _ x5 _ _ r j).trans ?_
  unfold edgeRow
  refine congrArg (fun f => lin f (matOf x4) (vecOf x5) j) (funext fun k => ?_)
  refine (truncf_bf16_apply _ _ _).trans ((gelu_kernel_apply _ _).trans (congrArg gelu ?_))
  refine (dense_kernel_apply dot_S8000x80_S80x64_S8000x64_1_0_0_1_n_n rfl rfl rfl rfl (fun _ _ => rfl) (fun _ _ => rfl)
    _ _ x3 _ _ r k).trans ?_
  refine congrArg (fun f => lin f (matOf x2) (vecOf x3) k) (funext fun a => ?_)
  refine (concat_apply (C := 80) rfl _ _ _ r a).trans ?_
  simp only [shapeCast_self]

/-- The node kernel's normalised rows (before the activation) at `(r, j)`. -/
theorem norm_apply (x0 x1 : FVec Ideal S5000x64 .f32) (x2 : FVec Ideal S128x64 .bf16) (x3 x4 x5 : FVec Ideal S64 .f32)
    (r : Fin 5000) (j : Fin 64) :
    k1_pay2 (F := Ideal) x0 x1 x2 x3 x4 x5 (ix2 r j)
      = lnRow (lin (cat (rowOf x0 r) (rowOf x1 r)) (matOf x2) (vecOf x3)) (vecOf x4) (vecOf x5) j := by
  unfold k1_pay2
  simp only [shapeCast_self]
  refine (lnKernel_apply _ x4 x5 _ _ _ _ _ _ _ r j).trans ?_
  refine congrArg (fun h => lnRow h (vecOf x4) (vecOf x5) j) (funext fun k => ?_)
  refine (dense_kernel_apply dot_S5000x128_S128x64_S5000x64_1_0_0_1_n_n rfl rfl rfl rfl (fun _ _ => rfl) (fun _ _ => rfl)
    _ _ x3 _ _ r k).trans ?_
  refine congrArg (fun f => lin f (matOf x2) (vecOf x3) k) (funext fun a => ?_)
  refine (truncf_bf16_apply _ _ _).trans ((concat_apply (C := 128) rfl _ _ _ r a).trans ?_)
  simp only [shapeCast_self]

/-- The node kernel's stored block at `(r, j)`. -/
theorem node_apply (x0 x1 : FVec Ideal S5000x64 .f32) (x2 : FVec Ideal S128x64 .bf16) (x3 x4 x5 : FVec Ideal S64 .f32)
    (r : Fin 5000) (j : Fin 64) :
    k1_pay1 (F := Ideal) x0 (k1_pay2 x0 x1 x2 x3 x4 x5) (k1_pay3 x0 x1 x2 x3 x4 x5) (ix2 r j)
      = nodeRow (rowOf x0 r) (rowOf x1 r) (matOf x2) (vecOf x3) (vecOf x4) (vecOf x5) j := by
  unfold k1_pay1 k1_pay3
  exact congrArg₂ (· + ·)
    ((gelu_kernel_apply (k1_pay2 (F := Ideal) x0 x1 x2 x3 x4 x5) (ix2 r j)).trans (congrArg gelu (norm_apply x0 x1 x2 x3 x4 x5 r j))) rfl

end Cert.KernelIdeal.Pay

end
-- ==== Proof.KernelBlocks.lean ====
/-
  From blocks to arrays. Each region's output array, after its last grid point, is one function of the arrays the region
  finds at its entry: the edge region leaves `msgArr` of its six operand arrays, the node region `updArr` of its six.
  Point `t` of either grid stages rows `[t · R, (t + 1) · R)` of the two row-blocked operands (`R` = 8000 edges, 5000
  nodes) and the whole of the four weight and bias operands, and writes back the same rows of the result; the blocks of
  the result are disjoint and together cover it (row `r` lies in the block of point `r / R`).
-/
import proofs.«125495_j83348135346321_2_alg».proof.Proof.Gen.KernelIdeal.Frame
import proofs.«125495_j83348135346321_2_alg».proof.Proof.KernelPay

set_option maxRecDepth 16384

noncomputable section

namespace Cert.KernelIdeal.Blocks

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.Rows

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a <;> rfl

/-! ## The edge region -/

/-- The six operand arrays of the edge region, as the region finds them. -/
abbrev eSrc (c : Dev nD) : FVec Ideal S1200000x64 .bf16 := V c main_v11
abbrev eEdge (c : Dev nD) : FVec Ideal S1200000x16 .bf16 := V c main_v12
abbrev eW1 (c : Dev nD) : FVec Ideal S80x64 .bf16 := V c main_v13
abbrev eB1 (c : Dev nD) : FVec Ideal S64 .f32 := V c main_arg4
abbrev eW2 (c : Dev nD) : FVec Ideal S64x64 .bf16 := V c main_v14
abbrev eB2 (c : Dev nD) : FVec Ideal S64 .f32 := V c main_arg6

/-- The printed index maps over the grid: the two row-blocked operands move with the result's block along the rows,
    the four resident operands stay at block zero, and the result's block row is the point's number. -/
theorem idx_facts0 : ∀ t : Fin cfg0.N,
    win0_0.index t (0 : Fin 2) = win0_6.index t (0 : Fin 2) ∧ win0_0.index t (1 : Fin 2) = 0
    ∧ win0_1.index t (0 : Fin 2) = win0_6.index t (0 : Fin 2) ∧ win0_1.index t (1 : Fin 2) = 0
    ∧ win0_2.index t (0 : Fin 2) = 0 ∧ win0_2.index t (1 : Fin 2) = 0
    ∧ win0_3.index t (0 : Fin 1) = 0
    ∧ win0_4.index t (0 : Fin 2) = 0 ∧ win0_4.index t (1 : Fin 2) = 0
    ∧ win0_5.index t (0 : Fin 1) = 0
    ∧ win0_6.index t (0 : Fin 2) = t.val ∧ win0_6.index t (1 : Fin 2) = 0 :=
  (by decide +kernel : ∀ t : Fin grid0.N, _)

/-- What point `t` writes back is block `t` of `msgArr` of the operand arrays. -/
theorem flushed0_eq (c : Dev nD) (t : Fin cfg0.N) :
    (dat0 V c).flushed 6 t = ((cfg0.win 6).blk t).view.read (Elt Ideal)
      (msgArr (eSrc V c) (eEdge V c) (eW1 V c) (eB1 V c) (eW2 V c) (eB2 V c)) := by
  show (cfg0.win 6).cut (grid0.coords t) ((dat0 V c).after 6 t) = _
  rw [after0_6]
  unfold out0_6
  rw [View.canon_unit_zero hz2]
  simp only [View.ld_unit_zero (S := S8000x64) hz2, View.ld_unit_zero (S := S8000x16) hz2, View.ld_unit_zero (S := S80x64) hz2,
    View.ld_unit_zero (S := S64) hz1, View.ld_unit_zero (S := S64x64) hz2]
  obtain ⟨e00, e01, e10, e11, e20, e21, e30, e40, e41, e50, e60, e61⟩ := idx_facts0 t
  refine funext fun (y : S8000x64.Idx) => ?_
  obtain ⟨p, q, rfl⟩ : ∃ (p : Fin 8000) (q : Fin 64), y = ix2 p q := ⟨y 0, y 1, eq_ix2 y⟩
  refine (Pay.edge_apply (iblk0 V c 0 t) (iblk0 V c 1 t) (iblk0 V c 2 t) (iblk0 V c 3 t) (iblk0 V c 4 t) (iblk0 V c 5 t) p q).trans ?_
  show _ = msgArr (eSrc V c) (eEdge V c) (eW1 V c) (eB1 V c) (eW2 V c) (eB2 V c) (((cfg0.win 6).blk t).view.emb (ix2 p q))
  unfold msgArr
  refine edgeRow_congr (funext fun k => ?_) (funext fun k => ?_) (funext fun k => funext fun j => ?_) (funext fun j => ?_)
    (funext fun k => funext fun j => ?_) (funext fun j => ?_) (Fin.ext ?_)
  · show eSrc V c (((cfg0.win 0).blk t).view.emb (ix2 p k)) = eSrc V c _
    refine congrArg (eSrc V c) (funext fun a => Fin.ext ?_)
    match a with
    | ⟨0, _⟩ => show win0_0.index t (0 : Fin 2) * 8000 + 1 * p.val = win0_6.index t (0 : Fin 2) * 8000 + 1 * p.val; omega
    | ⟨1, _⟩ => show win0_0.index t (1 : Fin 2) * 64 + 1 * k.val = k.val; omega
  · show eEdge V c (((cfg0.win 1).blk t).view.emb (ix2 p k)) = eEdge V c _
    refine congrArg (eEdge V c) (funext fun a => Fin.ext ?_)
    match a with
    | ⟨0, _⟩ => show win0_1.index t (0 : Fin 2) * 8000 + 1 * p.val = win0_6.index t (0 : Fin 2) * 8000 + 1 * p.val; omega
    | ⟨1, _⟩ => show win0_1.index t (1 : Fin 2) * 16 + 1 * k.val = k.val; omega
  · show eW1 V c (((cfg0.win 2).blk t).view.emb (ix2 k j)) = eW1 V c _
    refine congrArg (eW1 V c) (funext fun a => Fin.ext ?_)
    match a with
    | ⟨0, _⟩ => show win0_2.index t (0 : Fin 2) * 80 + 1 * k.val = k.val; omega
    | ⟨1, _⟩ => show win0_2.index t (1 : Fin 2) * 64 + 1 * j.val = j.val; omega
  · show eB1 V c (((cfg0.win 3).blk t).view.emb (ix1 j)) = eB1 V c _
    refine congrArg (eB1 V c) (funext fun a => Fin.ext ?_)
    match a with
    | ⟨0, _⟩ => show win0_3.index t (0 : Fin 1) * 64 + 1 * j.val = j.val; omega
  · show eW2 V c (((cfg0.win 4).blk t).view.emb (ix2 k j)) = eW2 V c _
    refine congrArg (eW2 V c) (funext fun a => Fin.ext ?_)
    match a with
    | ⟨0, _⟩ => show win0_4.index t (0 : Fin 2) * 64 + 1 * k.val = k.val; omega
    | ⟨1, _⟩ => show win0_4.index t (1 : Fin 2) * 64 + 1 * j.val = j.val; omega
  · show eB2 V c (((cfg0.win 5).blk t).view.emb (ix1 j)) = eB2 V c _
    refine congrArg (eB2 V c) (funext fun a => Fin.ext ?_)
    match a with
    | ⟨0, _⟩ => show win0_5.index t (0 : Fin 1) * 64 + 1 * j.val = j.val; omega
  · show q.val = win0_6.index t (1 : Fin 2) * 64 + 1 * q.val
    omega

/-- An index of the messages array is in point `t`'s block iff each coordinate is in the block's range on its axis. -/
theorem mem_blk0 (t : Fin cfg0.N) (i : S1200000x64.Idx) :
    i ∈ ((cfg0.win 6).blk t).view.set ↔ ∀ a : Fin 2, win0_6.index t a * S8000x64.size a ≤ (i a).val ∧ (i a).val < win0_6.index t a * S8000x64.size a + S8000x64.size a := by
  show i ∈ ((View.whole main_v16).slice (win0_6.rect t)).set ↔ _
  rw [View.set_slice_whole, Rect.mem_set_unit]
  exact Iff.rfl

/-- The messages array after the edge region: `msgArr` of the operand arrays. Row `r` is written by point `r / 8000`. -/
theorem final0 (c : Dev nD) : (dat0 V c).arrAt 6 cfg0.N
    = msgArr (eSrc V c) (eEdge V c) (eW1 V c) (eB1 V c) (eW2 V c) (eB2 V c) :=
  (dat0 V c).arrAt_eq_of_cover 6 _ (fun t _ => flushed0_eq V c t) fun i => by
    have hN : cfg0.N = 150 := N_0
    have hi0 : (i 0).val < 1200000 := (i 0).isLt
    have hi1 : (i 1).val < 64 := (i 1).isLt
    obtain ⟨t0, ht0⟩ : ∃ t0 : Fin cfg0.N, t0.val = (i 0).val / 8000 := ⟨⟨(i 0).val / 8000, by omega⟩, rfl⟩
    obtain ⟨-, -, -, -, -, -, -, -, -, -, e60, e61⟩ := idx_facts0 t0
    refine ⟨t0, flush0_6 t0, ?_⟩
    rw [mem_blk0]
    intro a
    match a with
    | ⟨0, _⟩ =>
      show win0_6.index t0 (0 : Fin 2) * 8000 ≤ (i 0).val ∧ (i 0).val < win0_6.index t0 (0 : Fin 2) * 8000 + 8000
      omega
    | ⟨1, _⟩ =>
      show win0_6.index t0 (1 : Fin 2) * 64 ≤ (i 1).val ∧ (i 1).val < win0_6.index t0 (1 : Fin 2) * 64 + 64
      omega

/-! ## The node region -/

/-- The six operand arrays of the node region, as the region finds them. -/
abbrev nNode (c : Dev nD) : FVec Ideal S100000x64 .f32 := V c main_arg0
abbrev nAgg (c : Dev nD) : FVec Ideal S100000x64 .f32 := V c main_v19
abbrev nW3 (c : Dev nD) : FVec Ideal S128x64 .bf16 := V c main_v15
abbrev nB3 (c : Dev nD) : FVec Ideal S64 .f32 := V c main_arg8
abbrev nScale (c : Dev nD) : FVec Ideal S64 .f32 := V c main_arg9
abbrev nShift (c : Dev nD) : FVec Ideal S64 .f32 := V c main_arg10

theorem idx_facts1 : ∀ t : Fin cfg1.N,
    win1_0.index t (0 : Fin 2) = win1_6.index t (0 : Fin 2) ∧ win1_0.index t (1 : Fin 2) = 0
    ∧ win1_1.index t (0 : Fin 2) = win1_6.index t (0 : Fin 2) ∧ win1_1.index t (1 : Fin 2) = 0
    ∧ win1_2.index t (0 : Fin 2) = 0 ∧ win1_2.index t (1 : Fin 2) = 0
    ∧ win1_3.index t (0 : Fin 1) = 0
    ∧ win1_4.index t (0 : Fin 1) = 0
    ∧ win1_5.index t (0 : Fin 1) = 0
    ∧ win1_6.index t (0 : Fin 2) = t.val ∧ win1_6.index t (1 : Fin 2) = 0 :=
  (by decide +kernel : ∀ t : Fin grid1.N, _)

/-- What point `t` writes back is block `t` of `updArr` of the operand arrays. -/
theorem flushed1_eq (c : Dev nD) (t : Fin cfg1.N) :
    (dat1 V c).flushed 6 t = ((cfg1.win 6).blk t).view.read (Elt Ideal)
      (updArr (nNode V c) (nAgg V c) (nW3 V c) (nB3 V c) (nScale V c) (nShift V c)) := by
  show (cfg1.win 6).cut (grid1.coords t) ((dat1 V c).after 6 t) = _
  rw [after1_6]
  unfold out1_6
  rw [View.canon_unit_zero hz2]
  simp only [View.ld_unit_zero (S := S5000x64) hz2, View.ld_unit_zero (S := S128x64) hz2, View.ld_unit_zero (S := S64) hz1]
  obtain ⟨e00, e01, e10, e11, e20, e21, e30, e40, e50, e60, e61⟩ := idx_facts1 t
  refine funext fun (y : S5000x64.Idx) => ?_
  obtain ⟨p, q, rfl⟩ : ∃ (p : Fin 5000) (q : Fin 64), y = ix2 p q := ⟨y 0, y 1, eq_ix2 y⟩
  refine (Pay.node_apply (iblk1 V c 0 t) (iblk1 V c 1 t) (iblk1 V c 2 t) (iblk1 V c 3 t) (iblk1 V c 4 t) (iblk1 V c 5 t) p q).trans ?_
  show _ = updArr (nNode V c) (nAgg V c) (nW3 V c) (nB3 V c) (nScale V c) (nShift V c) (((cfg1.win 6).blk t).view.emb (ix2 p q))
  unfold updArr
  refine nodeRow_congr (funext fun k => ?_) (funext fun k => ?_) (funext fun k => funext fun j => ?_) (funext fun j => ?_)
    (funext fun j => ?_) (funext fun j => ?_) (Fin.ext ?_)
  · show nNode V c (((cfg1.win 0).blk t).view.emb (ix2 p k)) = nNode V c _
    refine congrArg (nNode V c) (funext fun a => Fin.ext ?_)
    match a with
    | ⟨0, _⟩ => show win1_0.index t (0 : Fin 2) * 5000 + 1 * p.val = win1_6.index t (0 : Fin 2) * 5000 + 1 * p.val; omega
    | ⟨1, _⟩ => show win1_0.index t (1 : Fin 2) * 64 + 1 * k.val = k.val; omega
  · show nAgg V c (((cfg1.win 1).blk t).view.emb (ix2 p k)) = nAgg V c _
    refine congrArg (nAgg V c) (funext fun a => Fin.ext ?_)
    match a with
    | ⟨0, _⟩ => show win1_1.index t (0 : Fin 2) * 5000 + 1 * p.val = win1_6.index t (0 : Fin 2) * 5000 + 1 * p.val; omega
    | ⟨1, _⟩ => show win1_1.index t (1 : Fin 2) * 64 + 1 * k.val = k.val; omega
  · show nW3 V c (((cfg1.win 2).blk t).view.emb (ix2 k j)) = nW3 V c _
    refine congrArg (nW3 V c) (funext fun a => Fin.ext ?_)
    match a with
    | ⟨0, _⟩ => show win1_2.index t (0 : Fin 2) * 128 + 1 * k.val = k.val; omega
    | ⟨1, _⟩ => show win1_2.index t (1 : Fin 2) * 64 + 1 * j.val = j.val; omega
  · show nB3 V c (((cfg1.win 3).blk t).view.emb (ix1 j)) = nB3 V c _
    refine congrArg (nB3 V c) (funext fun a => Fin.ext ?_)
    match a with
    | ⟨0, _⟩ => show win1_3.index t (0 : Fin 1) * 64 + 1 * j.val = j.val; omega
  · show nScale V c (((cfg1.win 4).blk t).view.emb (ix1 j)) = nScale V c _
    refine congrArg (nScale V c) (funext fun a => Fin.ext ?_)
    match a with
    | ⟨0, _⟩ => show win1_4.index t (0 : Fin 1) * 64 + 1 * j.val = j.val; omega
  · show nShift V c (((cfg1.win 5).blk t).view.emb (ix1 j)) = nShift V c _
    refine congrArg (nShift V c) (funext fun a => Fin.ext ?_)
    match a with
    | ⟨0, _⟩ => show win1_5.index t (0 : Fin 1) * 64 + 1 * j.val = j.val; omega
  · show q.val = win1_6.index t (1 : Fin 2) * 64 + 1 * q.val
    omega

theorem mem_blk1 (t : Fin cfg1.N) (i : S100000x64.Idx) :
    i ∈ ((cfg1.win 6).blk t).view.set ↔ ∀ a : Fin 2, win1_6.index t a * S5000x64.size a ≤ (i a).val ∧ (i a).val < win1_6.index t a * S5000x64.size a + S5000x64.size a := by
  show i ∈ ((View.whole main_v20).slice (win1_6.rect t)).set ↔ _
  rw [View.set_slice_whole, Rect.mem_set_unit]
  exact Iff.rfl

/-- The result array after the node region: `updArr` of the operand arrays. Row `r` is written by point `r / 5000`. -/
theorem final1 (c : Dev nD) : (dat1 V c).arrAt 6 cfg1.N
    = updArr (nNode V c) (nAgg V c) (nW3 V c) (nB3 V c) (nScale V c) (nShift V c) :=
  (dat1 V c).arrAt_eq_of_cover 6 _ (fun t _ => flushed1_eq V c t) fun i => by
    have hN : cfg1.N = 20 := N_1
    have hi0 : (i 0).val < 100000 := (i 0).isLt
    have hi1 : (i 1).val < 64 := (i 1).isLt
    obtain ⟨t0, ht0⟩ : ∃ t0 : Fin cfg1.N, t0.val = (i 0).val / 5000 := ⟨⟨(i 0).val / 5000, by omega⟩, rfl⟩
    obtain ⟨-, -, -, -, -, -, -, -, -, e60, e61⟩ := idx_facts1 t0
    refine ⟨t0, flush1_6 t0, ?_⟩
    rw [mem_blk1]
    intro a
    match a with
    | ⟨0, _⟩ =>
      show win1_6.index t0 (0 : Fin 2) * 5000 ≤ (i 0).val ∧ (i 0).val < win1_6.index t0 (0 : Fin 2) * 5000 + 5000
      omega
    | ⟨1, _⟩ =>
      show win1_6.index t0 (1 : Fin 2) * 64 ≤ (i 1).val ∧ (i 1).val < win1_6.index t0 (1 : Fin 2) * 64 + 64
      omega

end Cert.KernelIdeal.Blocks

end
-- ==== Proof.KernelRun.lean ====
/-
  The idealized kernel's whole program, run: every weakly fair execution of @main ends with the result array holding what
  the second region's write-backs leave in it, and with every argument array as launched. @main is four segments: the host
  operations that slice the edge list, gather the source features and round the weights; the edge region; the host
  operations that scatter-add the messages by destination node; the node region. The contents of every buffer at each
  boundary are a fold from the launch memory, and the last boundary's contents at the result buffer are the second
  region's output array after its last grid point.
-/
import proofs.«125495_j83348135346321_2_alg».proof.Proof.Gen.KernelIdeal.Frame

set_option maxRecDepth 16384

noncomputable section

namespace Cert.KernelIdeal.Whole

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run of @main with the result named: the launch over the four segments, the last thread state (every unscoped
    buffer at the last boundary's contents) read against the final state, the result buffer kept beside the arguments. -/
theorem run_named : θ_run defs (onTc (τ := τ) (main (F := F))) ⟨m, fun _ => 0, ρ⟩ (fun r => ∀ c : Dev nD,
      r.2.mem ((c.tc : Thread nD τ).loc main_v20) = W4 m ρ c (Proc.devRef .tc main_v20)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v20 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c),
       (h c _ (mem_uc main_arg8 (by decide))).trans (W4_main_arg8 m ρ c),
       (h c _ (mem_uc main_arg9 (by decide))).trans (W4_main_arg9 m ρ c),
       (h c _ (mem_uc main_arg10 (by decide))).trans (W4_main_arg10 m ρ c)⟩)

end Cert.KernelIdeal.Whole

end
-- ==== Proof.KernelValue.lean ====
/-
  The idealized kernel's result as one function of its argument arrays. Walking the program backwards from the result:
  the node region leaves `updArr` of the arrays it finds; of those the node features, the biases and the normalisation's
  scale and shift are the arguments untouched, the weight is the argument rounded to bf16 (the identity on the extended
  reals), and the aggregated messages are the scatter-add, by the second row of the edge list, of what the edge region
  left; the edge region leaves `msgArr` of the arrays it finds, which are the gather of the (rounded) node features along
  the first row of the edge list and the (rounded) edge features, weights and biases.
-/
import proofs.«125495_j83348135346321_2_alg».proof.Proof.KernelBlocks
import proofs.«125495_j83348135346321_2_alg».proof.Proof.KernelRun
import Idealize.ShloMosaic.Lib.StableHlo.Run

set_option maxRecDepth 16384

noncomputable section

namespace Cert.KernelIdeal.Whole

open Idealize.ShloMosaic Idealize.ShloMosaic.TcCoe Idealize.ShloMosaic.ValueIdx Idealize.ShloMosaic.StableHlo Idealize.SL.Sem
open Cert.KernelIdeal Cert.KernelIdeal.Gen Cert.Rows

/-- The first row of the edge list: every edge's source node. -/
def firstRow (x2 : IVec S2x1200000 32) : IVec S1200000 32 :=
  shapeCast S1200000 (extractStridedSlice S1x1200000 ![0, 0] x2 slices_S2x1200000_S1x1200000_0_0) shapeCasts_S1x1200000_S1200000

/-- The source nodes' features, one row per edge: the gather of the node features along the first row of the edge list
    (a negative index wrapped once). -/
def srcFeatOf (x0 : FVec Ideal S100000x64 .f32) (x2 : IVec S2x1200000 32) : FVec Ideal S1200000x64 .f32 :=
  (Host.gather gather_S100000x64_S1200000x1_S1200000x64_1_0_n_n_0_1_164 x0 (broadcastInDim S1200000x1 ![0] bcast_S1200000_S1200000x1_0 (select (cmpi .slt (firstRow x2) (broadcastInDim S1200000 ![] bcast_S_S1200000 (constantI S_ 32 0#32))) (addi (firstRow x2) (broadcastInDim S1200000 ![] bcast_S_S1200000 (constantI S_ 32 100000#32))) (firstRow x2))))

/-- The destination nodes, one per edge: the second row of the edge list, as a column. -/
def dstIdxOf (x2 : IVec S2x1200000 32) : IVec S1200000x1 32 :=
  (broadcastInDim S1200000x1 ![0] bcast_S1200000_S1200000x1_0 (shapeCast S1200000 (extractStridedSlice S1x1200000 ![1, 0] x2 slices_S2x1200000_S1x1200000_1_0) shapeCasts_S1x1200000_S1200000))

/-- Messages summed per destination node: the scatter-add into zeros. -/
def aggOf (x2 : IVec S2x1200000 32) (msg : FVec Ideal S1200000x64 .f32) : FVec Ideal S100000x64 .f32 :=
  Host.scatterAdd scatter_S100000x64_S1200000x1_S1200000x64_1_0_0_1 (broadcastInDim S100000x64 ![] bcast_S_S100000x64 (constant S_ .f32 0x00000000#32)) (dstIdxOf x2) msg

/-- The whole layer as one function of the eleven argument arrays. -/
def layerOf (x0 : FVec Ideal S100000x64 .f32) (x1 : FVec Ideal S1200000x16 .f32) (x2 : IVec S2x1200000 32) (x3 : FVec Ideal S80x64 .f32)
    (x4 : FVec Ideal S64 .f32) (x5 : FVec Ideal S64x64 .f32) (x6 : FVec Ideal S64 .f32) (x7 : FVec Ideal S128x64 .f32)
    (x8 x9 x10 : FVec Ideal S64 .f32) : FVec Ideal S100000x64 .f32 :=
  updArr x0 (aggOf x2 (msgArr (srcFeatOf x0 x2) x1 x3 x4 x5 x6)) x7 x8 x9 x10

variable (m : (ℓ : Loc nD τ sig) → Buf (Elt Ideal) ℓ) (ρ : Dev nD → PrngReg) (c : Dev nD)

/-- The argument arrays at launch. -/
abbrev a0 : FVec Ideal S100000x64 .f32 := m ((c : Thread nD τ).loc main_arg0)
abbrev a1 : FVec Ideal S1200000x16 .f32 := m ((c : Thread nD τ).loc main_arg1)
abbrev a2 : IVec S2x1200000 32 := m ((c : Thread nD τ).loc main_arg2)
abbrev a3 : FVec Ideal S80x64 .f32 := m ((c : Thread nD τ).loc main_arg3)
abbrev a4 : FVec Ideal S64 .f32 := m ((c : Thread nD τ).loc main_arg4)
abbrev a5 : FVec Ideal S64x64 .f32 := m ((c : Thread nD τ).loc main_arg5)
abbrev a6 : FVec Ideal S64 .f32 := m ((c : Thread nD τ).loc main_arg6)
abbrev a7 : FVec Ideal S128x64 .f32 := m ((c : Thread nD τ).loc main_arg7)
abbrev a8 : FVec Ideal S64 .f32 := m ((c : Thread nD τ).loc main_arg8)
abbrev a9 : FVec Ideal S64 .f32 := m ((c : Thread nD τ).loc main_arg9)
abbrev a10 : FVec Ideal S64 .f32 := m ((c : Thread nD τ).loc main_arg10)

/-- A buffer after the first host stretch, read back to the launch memory. -/
local macro "first_stretch" : tactic =>
  `(tactic| (show StableHlo.after hostOps0 (W0 _ _ _) (Proc.devRef .tc _) = _; dsimp only [hostOps0]; after_results <;> rfl))

/-! ## What the edge region finds -/

theorem entry0_src : (V1 m ρ c main_v11 : FVec Ideal S1200000x64 .f32) = srcFeatOf (a0 m c) (a2 m c) := by first_stretch
theorem entry0_edge : (V1 m ρ c main_v12 : FVec Ideal S1200000x16 .f32) = a1 m c := by first_stretch
theorem entry0_w1 : (V1 m ρ c main_v13 : FVec Ideal S80x64 .f32) = a3 m c := by first_stretch
theorem entry0_b1 : (V1 m ρ c main_arg4 : FVec Ideal S64 .f32) = a4 m c := by first_stretch
theorem entry0_w2 : (V1 m ρ c main_v14 : FVec Ideal S64x64 .f32) = a5 m c := by first_stretch
theorem entry0_b2 : (V1 m ρ c main_arg6 : FVec Ideal S64 .f32) = a6 m c := by first_stretch

/-- The messages array when the edge region is left. -/
theorem messages_eq : (W2 m ρ c (Proc.devRef .tc main_v16) : FVec Ideal S1200000x64 .f32)
    = msgArr (srcFeatOf (a0 m c) (a2 m c)) (a1 m c) (a3 m c) (a4 m c) (a5 m c) (a6 m c) := by
  refine (W2_arr m ρ c 6).trans ((Blocks.final0 (V1 m ρ) c).trans ?_)
  show msgArr (V1 m ρ c main_v11 : FVec Ideal S1200000x64 .f32) (V1 m ρ c main_v12 : FVec Ideal S1200000x16 .f32)
    (V1 m ρ c main_v13 : FVec Ideal S80x64 .f32) (V1 m ρ c main_arg4 : FVec Ideal S64 .f32)
    (V1 m ρ c main_v14 : FVec Ideal S64x64 .f32) (V1 m ρ c main_arg6 : FVec Ideal S64 .f32) = _
  rw [entry0_src m ρ c, entry0_edge m ρ c, entry0_w1 m ρ c, entry0_b1 m ρ c, entry0_w2 m ρ c, entry0_b2 m ρ c]

/-! ## What the node region finds -/

/-- A buffer neither region nor the second stretch writes, read back through both to the first stretch. -/
theorem entry1_of_untouched (b : Ref sig .tc) (h0 : ∀ w, Pipeline.arrRef spec0 w ≠ b)
    (h1 : ∀ op ∈ (hostOps1 : List (HloOp τ sig (Elt Ideal))), Proc.devRef .tc b ∉ op.writes) :
    V3 m ρ c b = W1 m ρ c (Proc.devRef .tc b) :=
  (StableHlo.after_of_forall_not_mem (b := Proc.devRef .tc b) _ _ h1).trans (W2_of_ne m ρ c b h0)

/-- The second host stretch writes only its zero constant, its two broadcasts and the scatter's result. -/
theorem second_untouched (b : Ref sig .tc) (hb : b ≠ main_cst ∧ b ≠ main_v17 ∧ b ≠ main_v18 ∧ b ≠ main_v19) :
    ∀ op ∈ (hostOps1 : List (HloOp τ sig (Elt Ideal))), Proc.devRef .tc b ∉ op.writes := by
  refine List.forall_iff_forall_mem.mp ?_
  simp only [hostOps1, List.Forall, StableHlo.nullary_writes, StableHlo.unary_writes, StableHlo.ternary_writes, Finset.mem_singleton]
  exact ⟨StableHlo.devRef_ne_of_ne hb.1, StableHlo.devRef_ne_of_ne hb.2.1, StableHlo.devRef_ne_of_ne hb.2.2.1,
    StableHlo.devRef_ne_of_ne hb.2.2.2⟩

theorem entry1_node : (V3 m ρ c main_arg0 : FVec Ideal S100000x64 .f32) = a0 m c :=
  (entry1_of_untouched m ρ c main_arg0 (by decide) (second_untouched _ (by decide))).trans (by first_stretch)
theorem entry1_w3 : (V3 m ρ c main_v15 : FVec Ideal S128x64 .f32) = a7 m c :=
  (entry1_of_untouched m ρ c main_v15 (by decide) (second_untouched _ (by decide))).trans (by first_stretch)
theorem entry1_b3 : (V3 m ρ c main_arg8 : FVec Ideal S64 .f32) = a8 m c :=
  (entry1_of_untouched m ρ c main_arg8 (by decide) (second_untouched _ (by decide))).trans (by first_stretch)
theorem entry1_scale : (V3 m ρ c main_arg9 : FVec Ideal S64 .f32) = a9 m c :=
  (entry1_of_untouched m ρ c main_arg9 (by decide) (second_untouched _ (by decide))).trans (by first_stretch)
theorem entry1_shift : (V3 m ρ c main_arg10 : FVec Ideal S64 .f32) = a10 m c :=
  (entry1_of_untouched m ρ c main_arg10 (by decide) (second_untouched _ (by decide))).trans (by first_stretch)

/-- The second row of the edge list survives the edge region. -/
theorem dst_kept : (W2 m ρ c (Proc.devRef .tc main_v3) : IVec S1200000 32)
    = shapeCast S1200000 (extractStridedSlice S1x1200000 ![1, 0] (a2 m c) slices_S2x1200000_S1x1200000_1_0) shapeCasts_S1x1200000_S1200000 :=
  (W2_of_ne m ρ c main_v3 (by decide)).trans (by first_stretch)

/-- The aggregated messages the node region finds. -/
theorem entry1_agg : (V3 m ρ c main_v19 : FVec Ideal S100000x64 .f32)
    = aggOf (a2 m c) (msgArr (srcFeatOf (a0 m c) (a2 m c)) (a1 m c) (a3 m c) (a4 m c) (a5 m c) (a6 m c)) := by
  show StableHlo.after hostOps1 (W2 m ρ c) (Proc.devRef .tc main_v19) = _
  dsimp only [hostOps1]
  after_results
  rw [dst_kept m ρ c, messages_eq m ρ c]
  rfl

/-! ## The result -/

/-- The result array at the last boundary: the layer function of the argument arrays. -/
theorem result_eq : (W4 m ρ c (Proc.devRef .tc main_v20) : FVec Ideal S100000x64 .f32)
    = layerOf (a0 m c) (a1 m c) (a2 m c) (a3 m c) (a4 m c) (a5 m c) (a6 m c) (a7 m c) (a8 m c) (a9 m c) (a10 m c) := by
  refine (W4_arr m ρ c 6).trans ((Blocks.final1 (V3 m ρ) c).trans ?_)
  show updArr (V3 m ρ c main_arg0 : FVec Ideal S100000x64 .f32) (V3 m ρ c main_v19 : FVec Ideal S100000x64 .f32)
    (V3 m ρ c main_v15 : FVec Ideal S128x64 .f32) (V3 m ρ c main_arg8 : FVec Ideal S64 .f32)
    (V3 m ρ c main_arg9 : FVec Ideal S64 .f32) (V3 m ρ c main_arg10 : FVec Ideal S64 .f32) = _
  rw [entry1_node m ρ c, entry1_agg m ρ c, entry1_w3 m ρ c, entry1_b3 m ρ c, entry1_scale m ρ c, entry1_shift m ρ c]
  rfl

/-- The idealized kernel's run with its result read: the layer function of the argument arrays, the arguments unchanged. -/
theorem run_value : θ_run defs (onTc (τ := τ) (main (F := Ideal))) ⟨m, fun _ => 0, ρ⟩ (fun r => ∀ c : Dev nD,
      r.2.mem ((c.tc : Thread nD τ).loc main_v20)
        = layerOf (a0 m c) (a1 m c) (a2 m c) (a3 m c) (a4 m c) (a5 m c) (a6 m c) (a7 m c) (a8 m c) (a9 m c) (a10 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c => ⟨(h c).1.trans (result_eq m ρ c), (h c).2⟩) (run_named m ρ)

end Cert.KernelIdeal.Whole

end
-- ==== Proof.RefValue.lean ====
/-
  The idealized reference, read. Its run ends with the result at one composed term of the argument arrays; here that term
  is shown to be, index by index, `updArr` of the node features and of the messages `msgArr` scatter-added by destination
  node: each dense layer is a sum over the contracted coordinate plus the bias, GELU is the row function `gelu` (the host's
  cube `(x · x) · x` against `x · (x · x)`: commutativity), the two `reduce`s of the layer normalisation are row sums
  from zero. The gather by source node and the scatter-add by destination node are kept as the operations they are.
-/
import proofs.«125495_j83348135346321_2_alg».proof.Proof.Gen.ReferenceIdeal.Run
import proofs.«125495_j83348135346321_2_alg».proof.Proof.Rows

set_option maxRecDepth 16384

noncomputable section

namespace Cert.ReferenceIdeal.RefValue

open Idealize.ShloMosaic Idealize.ShloMosaic.ValueIdx Idealize.ShloMosaic.TcCoe Idealize.ShloMosaic.StableHlo Idealize.SL.Sem
open Cert.ReferenceIdeal Cert.ReferenceIdeal.Gen Cert.ReferenceIdeal.Value Cert.Rows Cert.DenseRows

variable (V0 : Valuation τ sig (Elt Ideal))

/-- The argument arrays as plain functions of an index. -/
abbrev nodes : FVec Ideal S100000x64 .f32 := V0 (Proc.devRef .tc main_arg0)
abbrev edges : FVec Ideal S1200000x16 .f32 := V0 (Proc.devRef .tc main_arg1)
abbrev w1 : FVec Ideal S80x64 .f32 := V0 (Proc.devRef .tc main_arg3)
abbrev b1 : FVec Ideal S64 .f32 := V0 (Proc.devRef .tc main_arg4)
abbrev w2 : FVec Ideal S64x64 .f32 := V0 (Proc.devRef .tc main_arg5)
abbrev b2 : FVec Ideal S64 .f32 := V0 (Proc.devRef .tc main_arg6)
abbrev w3 : FVec Ideal S128x64 .f32 := V0 (Proc.devRef .tc main_arg7)
abbrev b3 : FVec Ideal S64 .f32 := V0 (Proc.devRef .tc main_arg8)
abbrev lnScale : FVec Ideal S64 .f32 := V0 (Proc.devRef .tc main_arg9)
abbrev lnShift : FVec Ideal S64 .f32 := V0 (Proc.devRef .tc main_arg10)

/-- The first row of the edge list: every edge's source node. -/
def firstRow (x2 : IVec S2x1200000 32) : IVec S1200000 32 :=
  shapeCast S1200000 (extractStridedSlice S1x1200000 ![0, 0] x2 slices_S2x1200000_S1x1200000_0_0) shapeCasts_S1x1200000_S1200000

/-- The source nodes' features, one row per edge: the gather of the node features along the first row of the edge list
    (a negative index wrapped once). -/
def srcFeatOf (x0 : FVec Ideal S100000x64 .f32) (x2 : IVec S2x1200000 32) : FVec Ideal S1200000x64 .f32 :=
  (Host.gather gather_S100000x64_S1200000x1_S1200000x64_1_0_n_n_0_1_164 x0 (broadcastInDim S1200000x1 ![0] bcast_S1200000_S1200000x1_0 (select (cmpi .slt (firstRow x2) (broadcastInDim S1200000 ![] bcast_S_S1200000 (constantI S_ 32 0#32))) (addi (firstRow x2) (broadcastInDim S1200000 ![] bcast_S_S1200000 (constantI S_ 32 100000#32))) (firstRow x2))))

/-- The destination nodes, one per edge: the second row of the edge list, as a column. -/
def dstIdxOf (x2 : IVec S2x1200000 32) : IVec S1200000x1 32 :=
  (broadcastInDim S1200000x1 ![0] bcast_S1200000_S1200000x1_0 (shapeCast S1200000 (extractStridedSlice S1x1200000 ![1, 0] x2 slices_S2x1200000_S1x1200000_1_0) shapeCasts_S1x1200000_S1200000))

/-- Messages summed per destination node: the scatter-add into zeros. -/
def aggOf (x2 : IVec S2x1200000 32) (msg : FVec Ideal S1200000x64 .f32) : FVec Ideal S100000x64 .f32 :=
  Host.scatterAdd scatter_S100000x64_S1200000x1_S1200000x64_1_0_0_1 (broadcastInDim S100000x64 ![] bcast_S_S100000x64 (constant S_ .f32 0x00000000#32)) (dstIdxOf x2) msg

/-- The whole layer as one function of the eleven argument arrays. -/
def layerOf (x0 : FVec Ideal S100000x64 .f32) (x1 : FVec Ideal S1200000x16 .f32) (x2 : IVec S2x1200000 32) (x3 : FVec Ideal S80x64 .f32)
    (x4 : FVec Ideal S64 .f32) (x5 : FVec Ideal S64x64 .f32) (x6 : FVec Ideal S64 .f32) (x7 : FVec Ideal S128x64 .f32)
    (x8 x9 x10 : FVec Ideal S64 .f32) : FVec Ideal S100000x64 .f32 :=
  updArr x0 (aggOf x2 (msgArr (srcFeatOf x0 x2) x1 x3 x4 x5 x6)) x7 x8 x9 x10

abbrev elist : IVec S2x1200000 32 := V0 (Proc.devRef .tc main_arg2)

/-- The source features and destination nodes at the run's argument arrays. -/
abbrev srcFeat : FVec Ideal S1200000x64 .f32 := srcFeatOf (nodes V0) (elist V0)

/-- The hidden layer of the edge network at `(e, k)`. -/
theorem hidden_apply (e : Fin 1200000) (k : Fin 64) :
    (res_main_v15 (F := Ideal) V0 : FVec Ideal S1200000x64 .f32) (ix2 e k)
      = lin (cat (rowOf (srcFeat V0) e) (rowOf (edges V0) e)) (matOf (w1 V0)) (vecOf (b1 V0)) k := by
  unfold res_main_v15
  refine (dense_host_apply dot_S1200000x80_S80x64_S1200000x64_1_0_0_1_n_n rfl rfl rfl rfl (fun _ _ => rfl) (fun _ _ => rfl)
    _ _ _ _ _ e k).trans ?_
  exact congrArg (fun f => lin f (matOf (w1 V0)) (vecOf (b1 V0)) k) (funext fun a => concat_apply (C := 80) rfl _ _ _ e a)

/-- Every edge's message, as the reference computes it. -/
def msgTerm : FVec Ideal S1200000x64 .f32 :=
  addf (Host.dotGeneral dot_S1200000x64_S64x64_S1200000x64_1_0_0_1_n_n none (mulf (res_main_v15 V0) (mulf (broadcastInDim S1200000x64 ![] bcast_S_S1200000x64 (constant S_ .f32 0x3F000000#32)) (addf (broadcastInDim S1200000x64 ![] bcast_S_S1200000x64 (constant S_ .f32 0x3F800000#32)) (Host.tanh (mulf (broadcastInDim S1200000x64 ![] bcast_S_S1200000x64 (constant S_ .f32 0x3F4C422A#32)) (addf (res_main_v15 V0) (mulf (broadcastInDim S1200000x64 ![] bcast_S_S1200000x64 (constant S_ .f32 0x3D372713#32)) (mulf (mulf (res_main_v15 V0) (res_main_v15 V0)) (res_main_v15 V0))))))))) (w2 V0)) (broadcastInDim S1200000x64 ![0, 1] bcast_S1x64_S1200000x64_0_1 (broadcastInDim S1x64 ![1] bcast_S64_S1x64_1 (b2 V0)))

theorem msgTerm_eq : msgTerm V0 = msgArr (srcFeat V0) (edges V0) (w1 V0) (b1 V0) (w2 V0) (b2 V0) := by
  funext i
  obtain ⟨e, j, rfl⟩ : ∃ (e : Fin 1200000) (j : Fin 64), i = ix2 e j := ⟨i 0, i 1, eq_ix2 i⟩
  unfold msgTerm msgArr edgeRow
  refine (dense_host_apply dot_S1200000x64_S64x64_S1200000x64_1_0_0_1_n_n rfl rfl rfl rfl (fun _ _ => rfl) (fun _ _ => rfl)
    _ _ _ _ _ e j).trans ?_
  exact congrArg (fun f => lin f (matOf (w2 V0)) (vecOf (b2 V0)) j)
    (funext fun k => (gelu_host_apply _ _ _).trans (congrArg gelu (hidden_apply V0 e k)))

/-- The messages summed per destination node. -/
abbrev aggTerm : FVec Ideal S100000x64 .f32 := aggOf (elist V0) (msgTerm V0)

/-- The node network's affine layer at `(n, k)`. -/
theorem update_apply (n : Fin 100000) (k : Fin 64) :
    (res_main_v40 (F := Ideal) V0 : FVec Ideal S100000x64 .f32) (ix2 n k)
      = lin (cat (rowOf (nodes V0) n) (rowOf (aggTerm V0) n)) (matOf (w3 V0)) (vecOf (b3 V0)) k := by
  unfold res_main_v40
  refine (dense_host_apply dot_S100000x128_S128x64_S100000x64_1_0_0_1_n_n rfl rfl rfl rfl (fun _ _ => rfl) (fun _ _ => rfl)
    _ _ _ _ _ n k).trans ?_
  exact congrArg (fun f => lin f (matOf (w3 V0)) (vecOf (b3 V0)) k) (funext fun a => concat_apply (C := 128) rfl _ _ _ n a)

/-- The layer normalisation at `(n, j)`. -/
theorem norm_apply (n : Fin 100000) (j : Fin 64) :
    (res_main_v64 (F := Ideal) V0 : FVec Ideal S100000x64 .f32) (ix2 n j)
      = lnRow (fun k => (res_main_v40 (F := Ideal) V0 : FVec Ideal S100000x64 .f32) (ix2 n k)) (vecOf (lnScale V0)) (vecOf (lnShift V0)) j := by
  unfold res_main_v64 res_main_v46 res_main_v44
  exact lnHost_apply (res_main_v40 (F := Ideal) V0 : FVec Ideal S100000x64 .f32) (lnScale V0) (lnShift V0)
    reducesTo_S100000x64_S100000_d1 h_S_ (by decide) _ _ _ _ _ n j

/-- The result array's term, as the reference's run states it. -/
def resultTerm : FVec Ideal S100000x64 .f32 :=
  addf (mulf (res_main_v64 V0) (mulf (broadcastInDim S100000x64 ![] bcast_S_S100000x64 (constant S_ .f32 0x3F000000#32)) (addf (broadcastInDim S100000x64 ![] bcast_S_S100000x64 (constant S_ .f32 0x3F800000#32)) (Host.tanh (mulf (broadcastInDim S100000x64 ![] bcast_S_S100000x64 (constant S_ .f32 0x3F4C422A#32)) (addf (res_main_v64 V0) (mulf (broadcastInDim S100000x64 ![] bcast_S_S100000x64 (constant S_ .f32 0x3D372713#32)) (mulf (mulf (res_main_v64 V0) (res_main_v64 V0)) (res_main_v64 V0))))))))) (nodes V0)

theorem resultTerm_eq_upd : resultTerm V0 = updArr (nodes V0) (aggTerm V0) (w3 V0) (b3 V0) (lnScale V0) (lnShift V0) := by
  funext i
  obtain ⟨n, j, rfl⟩ : ∃ (n : Fin 100000) (j : Fin 64), i = ix2 n j := ⟨i 0, i 1, eq_ix2 i⟩
  unfold resultTerm updArr nodeRow
  exact congrArg₂ (· + ·)
    ((gelu_host_apply _ _ _).trans (congrArg gelu ((norm_apply V0 n j).trans
      (congrArg (fun h => lnRow h (vecOf (lnScale V0)) (vecOf (lnShift V0)) j) (funext fun k => update_apply V0 n k))))) rfl

/-- The reference's result is the layer function of its argument arrays. -/
theorem resultTerm_eq : resultTerm V0
    = layerOf (nodes V0) (edges V0) (elist V0) (w1 V0) (b1 V0) (w2 V0) (b2 V0) (w3 V0) (b3 V0) (lnScale V0) (lnShift V0) :=
  (resultTerm_eq_upd V0).trans
    (congrArg (fun M => updArr (nodes V0) (aggOf (elist V0) M) (w3 V0) (b3 V0) (lnScale V0) (lnShift V0)) (msgTerm_eq V0))

end Cert.ReferenceIdeal.RefValue

end
-- ==== Proof.lean ====
/-
  A message-passing layer on a graph of 100000 nodes and 1200000 edges, as a kernel program and as a plain reference.
  Both compute, on the extended reals: for every edge the message `lin (gelu ∘ lin (cat s e) W₁ b₁) W₂ b₂` of its source
  node's features `s` and its own features `e`; for every node the sum `a` of the messages of the edges that point at it;
  and for every node `gelu (lnRow (lin (cat n a) W₃ b₃) γ β) + n` (Proof/Rows.lean has the row functions).

  The kernel program does the two dense stages in two gridded regions — 150 blocks of 8000 edges, 20 blocks of 5000
  nodes — and the gather and the scatter-add on the host between them; its operands of the matrix products are rounded to
  bf16, which is the identity on the extended reals. The reference does everything on whole arrays. Read index by index
  the two agree operation by operation, but for the cube inside GELU, `x · (x · x)` against `(x · x) · x`: equal by
  commutativity of the product. No step needs the inputs to be finite, so the precondition is not opened.

  The three frames are the generated ones (the reference's is its run with the result dropped); the idealization rewrote
  nothing, so `preserves` is trivial; `algebraic` puts the two runs side by side at one function of the argument arrays.
-/
import proofs.«125495_j83348135346321_2_alg».proof.Defs
import proofs.«125495_j83348135346321_2_alg».proof.Proof.Gen.Kernel
import proofs.«125495_j83348135346321_2_alg».proof.Proof.Gen.Kernel.Skeleton
import proofs.«125495_j83348135346321_2_alg».proof.Proof.Gen.Kernel.Launch
import proofs.«125495_j83348135346321_2_alg».proof.Proof.Gen.Kernel.Points
import proofs.«125495_j83348135346321_2_alg».proof.Proof.Gen.Kernel.Frame
import proofs.«125495_j83348135346321_2_alg».proof.Proof.Gen.KernelIdeal
import proofs.«125495_j83348135346321_2_alg».proof.Proof.Gen.KernelIdeal.Skeleton
import proofs.«125495_j83348135346321_2_alg».proof.Proof.Gen.KernelIdeal.Launch
import proofs.«125495_j83348135346321_2_alg».proof.Proof.Gen.KernelIdeal.Points
import proofs.«125495_j83348135346321_2_alg».proof.Proof.Gen.KernelIdeal.Frame
import proofs.«125495_j83348135346321_2_alg».proof.Proof.Gen.ReferenceIdeal
import proofs.«125495_j83348135346321_2_alg».proof.Proof.Gen.Pre_finite_inputs
import proofs.«125495_j83348135346321_2_alg».proof.Proof.Gen.ReferenceIdeal.Run
import proofs.«125495_j83348135346321_2_alg».proof.Proof.KernelValue
import proofs.«125495_j83348135346321_2_alg».proof.Proof.RefValue
import Idealize.ShloMosaic.Adequacy
import Idealize.ShloMosaic.Init

set_option maxRecDepth 16384

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- The layer function as spelt over the kernel program's shape records is the one spelt over the reference's: the
    records carry the same dimension numbers. -/
theorem layer_agree (x0 : FVec Ideal Cert.ReferenceIdeal.S100000x64 .f32) (x1 : FVec Ideal Cert.ReferenceIdeal.S1200000x16 .f32) (x2 : IVec Cert.ReferenceIdeal.S2x1200000 32)
    (x3 : FVec Ideal Cert.ReferenceIdeal.S80x64 .f32) (x4 : FVec Ideal Cert.ReferenceIdeal.S64 .f32) (x5 : FVec Ideal Cert.ReferenceIdeal.S64x64 .f32) (x6 : FVec Ideal Cert.ReferenceIdeal.S64 .f32)
    (x7 : FVec Ideal Cert.ReferenceIdeal.S128x64 .f32) (x8 x9 x10 : FVec Ideal Cert.ReferenceIdeal.S64 .f32) :
    Cert.ReferenceIdeal.RefValue.layerOf x0 x1 x2 x3 x4 x5 x6 x7 x8 x9 x10 = Cert.KernelIdeal.Whole.layerOf x0 x1 x2 x3 x4 x5 x6 x7 x8 x9 x10 := rfl

/-- From memories that agree on the arguments the two idealized programs end with equal results: the kernel's result is
    the layer function of its argument arrays (the fold through its two regions), the reference's is the same function
    of its own (its run's term read index by index), and the arguments agree. -/
theorem algebraic : Cert.algebraic_KernelIdeal_ReferenceIdeal := by
  intro m ρ m' ρ' _ hagree
  refine ⟨fun c => Cert.KernelIdeal.Whole.layerOf (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)), Cert.KernelIdeal.Whole.run_value m ρ, ?_⟩
  refine (θ_run Cert.ReferenceIdeal.defs _ _).mono (fun _ h c => ⟨(h c).1.trans ?_, (h c).2⟩)
    (Cert.ReferenceIdeal.Value.run (F := Ideal) m' ρ')
  refine (Cert.ReferenceIdeal.RefValue.resultTerm_eq (StableHlo.launchContents m' c)).trans ?_
  obtain ⟨h0, h1, h2, h3, h4, h5, h6, h7, h8, h9, h10⟩ := hagree c
  have e : Cert.ReferenceIdeal.RefValue.layerOf (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10))
      = Cert.ReferenceIdeal.RefValue.layerOf (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) := by
    rw [h0, h1, h2, h3, h4, h5, h6, h7, h8, h9, h10]
  exact e.trans (layer_agree _ _ _ _ _ _ _ _ _ _ _)

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
